-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S50000 : Shape := ⟨1, ![50000]⟩
abbrev S50000x128 : Shape := ⟨2, ![50000, 128]⟩
abbrev S2x800000 : Shape := ⟨2, ![2, 800000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S50000 : S_.BroadcastsInDim S50000 (![] : Fin 0 → Fin S50000.rank)
  reducesTo_S50000_S_d0 : S50000.ReducesTo [0] S_
  bcast_S_S50000x128 : S_.BroadcastsInDim S50000x128 (![] : Fin 0 → Fin S50000x128.rank)
  reducesTo_S50000x128_S_d0_1 : S50000x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128x1 .f32) (main_arg14 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128 .f32) (main_arg13 : FVec F S128x1 .f32) (main_arg14 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x1 .f32) (main_arg1 : FVec F S50000 .f32) (main_arg2 : FVec F S50000x128 .f32) (main_arg3 : IVec S2x800000 32) (main_arg4 : FVec F S1x128 .f32) (main_arg5 : FVec F S128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_arg12 : FVec F S128 .f32) (main_arg13 : FVec F S128x1 .f32) (main_arg14 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x1 : Shape := ⟨2, ![50000, 1]⟩
abbrev S50000 : Shape := ⟨1, ![50000]⟩
abbrev S50000x128 : Shape := ⟨2, ![50000, 128]⟩
abbrev S2x800000 : Shape := ⟨2, ![2, 800000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S5000x1 : Shape := ⟨2, ![5000, 1]⟩
abbrev S5000x128 : Shape := ⟨2, ![5000, 128]⟩
abbrev S800000x128 : Shape := ⟨2, ![800000, 128]⟩

abbrev nBuf : Space → Nat
  | .hbm => 86
  | .vmem => 43
  | .smem => 0
  | _ => 0

abbrev bufTy : (tb : Table) → Fin (tcTables nBuf tb) → BufTy
  | .hbm, ⟨0, _⟩ => ⟨S50000x1, .f32⟩
  | .hbm, ⟨1, _⟩ => ⟨S50000, .f32⟩
  | .hbm, ⟨2, _⟩ => ⟨S50000x128, .f32⟩
  | .hbm, ⟨3, _⟩ => ⟨S2x800000, .i32⟩
  | .hbm, ⟨4, _⟩ => ⟨S1x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x1, .f32⟩
  | .hbm, ⟨31, _⟩ => ⟨S50000x1, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x1, .f32⟩
  | .hbm, ⟨39, _⟩ => ⟨S128x128, .bf16⟩
  | .hbm, ⟨40, _⟩ => ⟨S128x128, .bf16⟩
  | .hbm, ⟨41, _⟩ => ⟨S128x1, .bf16⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x1, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x1, .f32⟩
  | .hbm, ⟨80, _⟩ => ⟨S_, .f32⟩
  | .hbm, ⟨81, _⟩ => ⟨S50000x1, .f32⟩
  | .hbm, ⟨82, _⟩ => ⟨S800000x1, .i32⟩
  | .hbm, ⟨83, _⟩ => ⟨S50000x1, .f32⟩
  | .hbm, ⟨84, _⟩ => ⟨S50000x1, .f32⟩
  | .hbm, ⟨85, _⟩ => ⟨S50000, .f32⟩
  | .local _ .vmem, ⟨0, _⟩ => ⟨S5000x1, .f32⟩
  | .local _ .vmem, ⟨1, _⟩ => ⟨S5000x1, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S128x128, .bf16⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S1x128, .f32⟩
  | .local _ .vmem, ⟨31, _⟩ => ⟨S128x1, .bf16⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S5000x1, .f32⟩
  | .local _ .vmem, ⟨40, _⟩ => ⟨S1x1, .f32⟩
  | .local _ .vmem, ⟨41, _⟩ => ⟨S5000x1, .f32⟩
  | .local _ .vmem, ⟨42, _⟩ => ⟨S5000x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg4_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem4_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1_S1x1_1 : S1.BroadcastsInDim S1x1 (![1] : Fin 1 → Fin S1x1.rank)
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  broadcasts_S5000x1_S5000x128 : S5000x1.Broadcasts S5000x128
  broadcasts_S1x128_S5000x128 : S1x128.Broadcasts S5000x128
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  bcast_S_S50000x1 : S_.BroadcastsInDim S50000x1 (![] : Fin 0 → Fin S50000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x1_S5000x1_1_0_0_1_n_n_wf : DotDims.WF S5000x128 S128x1 S5000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .bf16 = 32 ∨ (Rect.block (s := S128x1) S128x1.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S50000x1.size a
  hwx3_0 : ∀ i : grid3.Coords, EltTy.bits .f32 = 32 ∨ (Rect.block (s := S50000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v13) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x1 : Shape := ⟨2, ![50000, 1]⟩
abbrev S50000 : Shape := ⟨1, ![50000]⟩
abbrev S50000x128 : Shape := ⟨2, ![50000, 128]⟩
abbrev S2x800000 : Shape := ⟨2, ![2, 800000]⟩
abbrev S1x128 : Shape := ⟨2, ![1, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S50000x1, .f32⟩
  | 1 => ⟨S50000, .f32⟩
  | 2 => ⟨S50000x128, .f32⟩
  | 3 => ⟨S2x800000, .i32⟩
  | 4 => ⟨S1x128, .f32⟩
  | 5 => ⟨S128, .f32⟩
  | 6 => ⟨S128, .f32⟩
  | 7 => ⟨S128x128, .f32⟩
  | 8 => ⟨S128, .f32⟩
  | 9 => ⟨S128, .f32⟩
  | 10 => ⟨S128x128, .f32⟩
  | 11 => ⟨S128, .f32⟩
  | 12 => ⟨S128, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000, .f32⟩
  | 49 => ⟨S50000x1, .f32⟩
  | 50 => ⟨S50000x1, .f32⟩
  | 51 => ⟨S50000x1, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .i1⟩
  | 59 => ⟨S1x128, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .i1⟩
  | 90 => ⟨S1x128, .f32⟩
  | 91 => ⟨S50000x128, .f32⟩
  | 92 => ⟨S50000x128, .f32⟩
  | 93 => ⟨S50000x128, .f32⟩
  | 94 => ⟨S50000x128, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .i1⟩
  | 120 => ⟨S1x128, .f32⟩
  | 121 => ⟨S50000x128, .f32⟩
  | 122 => ⟨S50000x128, .f32⟩
  | 123 => ⟨S50000x128, .f32⟩
  | 124 => ⟨S50000x1, .f32⟩
  | 125 => ⟨S800000x1, .f32⟩
  | 126 => ⟨S_, .i32⟩
  | 127 => ⟨S800000, .i32⟩
  | _ => ⟨S50000x1, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x1, .f32⟩
  | 7 => ⟨S800000x1, .f32⟩
  | 8 => ⟨S_, .f32⟩
  | 9 => ⟨S50000x1, .f32⟩
  | 10 => ⟨S800000x1, .i32⟩
  | 11 => ⟨S50000x1, .f32⟩
  | 12 => ⟨S50000x1, .f32⟩
  | 13 => ⟨S50000x1, .f32⟩
  | 14 => ⟨S1x1, .f32⟩
  | 15 => ⟨S50000x1, .f32⟩
  | 16 => ⟨S50000x1, .f32⟩
  | 17 => ⟨S50000, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_10 : Ref sig .tc := ⟨.hbm, 96, rfl⟩
abbrev main_v69 : Ref sig .tc := ⟨.hbm, 97, rfl⟩
abbrev main_v70 : Ref sig .tc := ⟨.hbm, 98, rfl⟩
abbrev main_c_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_13 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_14 : Ref sig .tc := ⟨.hbm, 126, rfl⟩
abbrev main_v95 : Ref sig .tc := ⟨.hbm, 127, rfl⟩
abbrev main_v96 : Ref sig .tc := ⟨.hbm, 128, rfl⟩
abbrev main_c_15 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_16 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x1_S1x128_S50000x128_1_0_0_1_n_n_wf : DotDims.WF S50000x1 S1x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.GcnLaw.lean ====
/-
  The algebra that joins the two programs, on the extended reals, with no program in sight.

  One graph-convolution layer, at a node `n` and a feature column, from the transformed features `h` (one column of
  `h @ W`), the node scales `d = deg^(-1/2)` and a bias `b`:

    the kernel computes      d n * ((0 + ∑ e landing at n, d (s e) * h (s e)) + d n * h n) + b
    the reference computes   (0 + ∑ e landing at n, (d (s e) * d (t e)) * h (s e)) + (d n * d n) * h n + b

  where edge `e` reads its source row `s e`, the reference reads the scale of its destination row `t e`, and an edge that
  lands at `n` has `t e = n`. The two agree because multiplication by `d n` distributes over the sum — which on the
  extended reals needs `d n` to be nonnegative and not `⊤` — and the rest is associativity and commutativity of the
  product. That `d n` is such a number: the degree is `1` plus a count, a positive real, and the reciprocal square root
  of a positive real is a positive real.
-/
import Mathlib.Data.EReal.Operations
import Idealize.ShloMosaic.PureOps.Ideal
import Idealize.ShloMosaic.PureOps.Ideal.Laws
import Idealize.ShloMosaic.Lib.ValueIdx

noncomputable section

open scoped BigOperators

namespace GcnLaw

open Idealize.ShloMosaic Idealize.ShloMosaic.ValueIdx

/-- PReLU with slope `a`, in the spelling both programs print: `x` where `x ≥ 0` holds, `a * x` elsewhere. -/
def prelu (x a : EReal) : EReal :=
  Scalar.select (FloatOps.cmpf (F := Ideal) (φ := .f32) .oge x (Ideal.ofBits .f32 0x00000000#32)) x (a * x)

/-- Row `n`, column `q` of the pre-scaled first layer: the input projection `prelu (nm n * Wnum + bnum) ain + x n`,
    through the linear map `w`, scaled by the node's `d2 n`. -/
def firstRows {N : ℕ} (nm d2 : (⟨2, ![N, 1]⟩ : Shape).Idx → EReal) (x : (⟨2, ![N, 128]⟩ : Shape).Idx → EReal)
    (wn bn an : (⟨2, ![1, 128]⟩ : Shape).Idx → EReal) (w : (⟨2, ![128, 128]⟩ : Shape).Idx → EReal)
    (n : Fin N) (q : Fin 128) : EReal :=
  d2 (ix2 n (0 : Fin 1)) * ∑ k : Fin 128,
    (prelu (nm (ix2 n (0 : Fin 1)) * wn (ix2 (0 : Fin 1) k) + bn (ix2 (0 : Fin 1) k)) (an (ix2 (0 : Fin 1) k))
      + x (ix2 n k)) * w (ix2 k q)

/-- Row `n`, column `q` of a pre-scaled later layer: the combine `d2 n * (agg n + hs n) + b`, its PReLU, through the
    linear map `w`, scaled by `d2 n`. -/
def combineRows {N C : ℕ} (agg hs : (⟨2, ![N, 128]⟩ : Shape).Idx → EReal) (d2 : (⟨2, ![N, 1]⟩ : Shape).Idx → EReal)
    (b a : (⟨2, ![1, 128]⟩ : Shape).Idx → EReal) (w : (⟨2, ![128, C]⟩ : Shape).Idx → EReal)
    (n : Fin N) (q : Fin C) : EReal :=
  d2 (ix2 n (0 : Fin 1)) * ∑ k : Fin 128,
    prelu (d2 (ix2 n (0 : Fin 1)) * (agg (ix2 n k) + hs (ix2 n k)) + b (ix2 (0 : Fin 1) k)) (a (ix2 (0 : Fin 1) k))
      * w (ix2 k q)

/-- Row `n` of the last combine: `d2 n * (agg n + hs n) + b`. -/
def finalRows {N : ℕ} (agg hs d2 : (⟨2, ![N, 1]⟩ : Shape).Idx → EReal) (b : (⟨2, ![1, 1]⟩ : Shape).Idx → EReal)
    (n : Fin N) : EReal :=
  d2 (ix2 n (0 : Fin 1)) * (agg (ix2 n (0 : Fin 1)) + hs (ix2 n (0 : Fin 1))) + b (ix2 (0 : Fin 1) (0 : Fin 1))

/-- A nonnegative extended real other than `⊤` distributes over a finite sum. -/
theorem mul_sum_of_nonneg_ne_top {ι : Type} (s : Finset ι) (x : EReal) (h0 : 0 ≤ x) (ht : x ≠ ⊤) (f : ι → EReal) :
    x * ∑ i ∈ s, f i = ∑ i ∈ s, x * f i := by
  classical
  refine Finset.induction_on s ?_ ?_
  · simp
  · intro a s ha ih
    rw [Finset.sum_insert ha, Finset.sum_insert ha, EReal.left_distrib_of_nonneg_of_ne_top h0 ht, ih]

/-- THE LAYER LAW: scaling the aggregated, pre-scaled rows by `d n` afterwards is scaling each edge's row by
    `d (s e) * d (t e)` before aggregating, and the self term `d n * (d n * h n)` is `(d n * d n) * h n`. -/
theorem layer_law {N E : ℕ} (d : Fin N → EReal) (h0 : ∀ n, 0 ≤ d n) (ht : ∀ n, d n ≠ ⊤)
    (land : Fin E → Fin N → Prop) [∀ e n, Decidable (land e n)] (s t : Fin E → Fin N)
    (hland : ∀ e n, land e n → t e = n) (h : Fin N → EReal) (b : EReal) (n : Fin N) :
    d n * ((0 + ∑ e, if land e n then d (s e) * h (s e) else 0) + d n * h n) + b
      = ((0 + ∑ e, if land e n then (d (s e) * d (t e)) * h (s e) else 0) + (d n * d n) * h n) + b := by
  rw [zero_add, zero_add, EReal.left_distrib_of_nonneg_of_ne_top (h0 n) (ht n),
    mul_sum_of_nonneg_ne_top _ _ (h0 n) (ht n), ← mul_assoc]
  refine congrArg (fun z => z + d n * d n * h n + b) ?_
  refine Finset.sum_congr rfl fun e _ => ?_
  by_cases hl : land e n
  · rw [if_pos hl, if_pos hl, hland e n hl, ← mul_assoc, mul_comm (d n)]
  · rw [if_neg hl, if_neg hl, mul_zero]

/-- A sum of copies of a nonnegative real, one per index that satisfies a condition, is a nonnegative real. -/
theorem sum_ite_real {ι : Type} (s : Finset ι) (p : ι → Prop) [DecidablePred p] (u : ℝ) (hu : 0 ≤ u) :
    ∃ r : ℝ, 0 ≤ r ∧ ∑ i ∈ s, (if p i then (u : EReal) else 0) = (r : EReal) := by
  classical
  refine Finset.induction_on s ⟨0, le_refl _, by simp⟩ ?_
  intro a s ha ih
  obtain ⟨r, hr, e⟩ := ih
  rw [Finset.sum_insert ha, e]
  by_cases hp : p a
  · exact ⟨u + r, add_nonneg hu hr, by rw [if_pos hp, EReal.coe_add]⟩
  · exact ⟨r, hr, by rw [if_neg hp, zero_add]⟩

/-- The reciprocal square root of a positive real is a nonnegative extended real other than `⊤`. -/
theorem rsqrt_pos_real (r : ℝ) (hr : 0 < r) : 0 ≤ Ideal.rsqrt (r : EReal) ∧ Ideal.rsqrt (r : EReal) ≠ ⊤ := by
  have e : Ideal.rsqrt (r : EReal) = (((Real.sqrt r)⁻¹ : ℝ) : EReal) := by
    show (if r < 0 then (⊥ : EReal) else if r = 0 then ⊤ else (((Real.sqrt r)⁻¹ : ℝ) : EReal)) = _
    rw [if_neg (not_lt.mpr hr.le), if_neg hr.ne']
  rw [e]
  exact ⟨EReal.coe_nonneg.mpr (inv_nonneg.mpr (Real.sqrt_nonneg r)), EReal.coe_ne_top _⟩

/-- The pattern of `1.0` denotes the real `1`. -/
theorem ofBits_one_f32 : Ideal.ofBits .f32 0x3F800000#32 = ((1 : ℝ) : EReal) := by
  simp [Ideal.ofBits, Ideal.ieee, -EReal.coe_mul]
  norm_num

/-- THE NODE SCALE IS A NONNEGATIVE REAL: the reciprocal square root of `1` plus a count of ones. -/
theorem scale_ok {ι : Type} [Fintype ι] (p : ι → Prop) [DecidablePred p] :
    0 ≤ Ideal.rsqrt ((Ideal.ofBits .f32 0x00000000#32 + ∑ i, (if p i then Ideal.ofBits .f32 0x3F800000#32 else 0))
        + Ideal.ofBits .f32 0x3F800000#32)
    ∧ Ideal.rsqrt ((Ideal.ofBits .f32 0x00000000#32 + ∑ i, (if p i then Ideal.ofBits .f32 0x3F800000#32 else 0))
        + Ideal.ofBits .f32 0x3F800000#32) ≠ ⊤ := by
  obtain ⟨r, hr, e⟩ := sum_ite_real Finset.univ p 1 zero_le_one
  rw [Ideal.ofBits_zero_f32, ofBits_one_f32, e, zero_add, ← EReal.coe_add]
  exact rsqrt_pos_real (r + 1) (by linarith)

end GcnLaw

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  What each of the four kernel bodies stores, read at a row `p` and a column `q` of its block, on the extended reals.

  * the input projection fused with the first linear map: `dis p * ∑ k, (prelu (nm p * Wnum k + bnum k) (ain k) + x p k) * W k q`;
  * a combine fused with the next linear map: `dis p * ∑ k, prelu (dis p * (agg p k + hs p k) + b k) (a k) * W k q`
    (twice: into 128 columns, and into one column);
  * the final combine: `dis p * (agg p + hs p) + b`.

  A change of float format is the identity here, a shape cast to the same shape is the identity, a one-column block
  broadcast along the rows reads its column, a one-row block broadcast down the rows reads its row, and the matrix
  product into the zero accumulator is the plain sum over the contracted axis.
-/
import proofs.«181795_j20581483283116_2_alg».proof.Proof.Gen.KernelIdeal.Skeleton
import proofs.«181795_j20581483283116_2_alg».proof.Proof.GcnLaw
import proofs.«181795_j20581483283116_2_alg».proof.Proof.LibRowOps
import proofs.«181795_j20581483283116_2_alg».proof.Proof.LibColumns
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx GcnLaw

/-- The input projection and first linear map at `(p, q)`. -/
theorem k0_apply (v0 : Vec Ideal S5000x1 .f32) (v2 v6 v12 : Vec Ideal S1x128 .f32) (v17 : Vec Ideal S5000x128 .f32)
    (v20 : Vec Ideal S128x128 .bf16) (v23 : Vec Ideal S5000x1 .f32) (p : Fin 5000) (q : Fin 128) :
    k0_pay1 v0 v2 v6 v12 v17 v20 v23 (ix2 p q)
      = v23 (ix2 p (0 : Fin 1)) * ∑ k : Fin 128,
          (prelu (v0 (ix2 p (0 : Fin 1)) * v2 (ix2 (0 : Fin 1) k) + v6 (ix2 (0 : Fin 1) k)) (v12 (ix2 (0 : Fin 1) k))
            + v17 (ix2 p k)) * v20 (ix2 k q) := by
  unfold k0_pay1
  simp only [shapeCast_self]
  refine congrArg₂ (· * ·) (broadcastTo_a1_ab_apply _ _ p q) ?_
  refine Eq.trans (RowOps.matmul_zero_plain_apply _ ⟨_, rfl⟩ none _ _ p q) ?_
  refine Finset.sum_congr rfl fun k _ => ?_
  refine congrArg (· * v20 (ix2 k q)) ?_
  simp only [prelu, truncf_apply, addf_apply, select_apply, cmpf_apply, mulf_apply, broadcast_apply,
    broadcastTo_a1_ab_apply, broadcastTo_1b_ab_apply]
  rfl

/-- A combine and the next linear map, into 128 columns, at `(p, q)`. -/
theorem k1_apply (v0 : Vec Ideal S5000x1 .f32) (v2 v4 : Vec Ideal S5000x128 .f32) (v9 v15 : Vec Ideal S1x128 .f32)
    (v21 : Vec Ideal S128x128 .bf16) (v24 : Vec Ideal S5000x1 .f32) (p : Fin 5000) (q : Fin 128) :
    k1_pay1 v0 v2 v4 v9 v15 v21 v24 (ix2 p q)
      = v24 (ix2 p (0 : Fin 1)) * ∑ k : Fin 128,
          prelu (v0 (ix2 p (0 : Fin 1)) * (v2 (ix2 p k) + v4 (ix2 p k)) + v9 (ix2 (0 : Fin 1) k)) (v15 (ix2 (0 : Fin 1) k))
            * v21 (ix2 k q) := by
  unfold k1_pay1
  simp only [shapeCast_self]
  refine congrArg₂ (· * ·) (broadcastTo_a1_ab_apply _ _ p q) ?_
  refine Eq.trans (RowOps.matmul_zero_plain_apply _ ⟨_, rfl⟩ none _ _ p q) ?_
  refine Finset.sum_congr rfl fun k _ => ?_
  refine congrArg (· * v21 (ix2 k q)) ?_
  simp only [prelu, truncf_apply, addf_apply, select_apply, cmpf_apply, mulf_apply, broadcast_apply,
    broadcastTo_a1_ab_apply, broadcastTo_1b_ab_apply]
  rfl

/-- A combine and the next linear map, into one column, at `(p, q)`. -/
theorem k2_apply (v0 : Vec Ideal S5000x1 .f32) (v2 v4 : Vec Ideal S5000x128 .f32) (v9 v15 : Vec Ideal S1x128 .f32)
    (v21 : Vec Ideal S128x1 .bf16) (v24 : Vec Ideal S5000x1 .f32) (p : Fin 5000) (q : Fin 1) :
    k2_pay1 v0 v2 v4 v9 v15 v21 v24 (ix2 p q)
      = v24 (ix2 p (0 : Fin 1)) * ∑ k : Fin 128,
          prelu (v0 (ix2 p (0 : Fin 1)) * (v2 (ix2 p k) + v4 (ix2 p k)) + v9 (ix2 (0 : Fin 1) k)) (v15 (ix2 (0 : Fin 1) k))
            * v21 (ix2 k (0 : Fin 1)) := by
  obtain rfl : q = 0 := Subsingleton.elim _ _
  unfold k2_pay1
  simp only [shapeCast_self]
  refine congrArg₂ (· * ·) rfl ?_
  refine Eq.trans (RowOps.matmul_zero_plain_apply _ ⟨_, rfl⟩ none _ _ p (0 : Fin 1)) ?_
  refine Finset.sum_congr rfl fun k _ => ?_
  refine congrArg (· * v21 (ix2 k (0 : Fin 1))) ?_
  simp only [prelu, truncf_apply, addf_apply, select_apply, cmpf_apply, mulf_apply, broadcast_apply,
    broadcastTo_a1_ab_apply, broadcastTo_1b_ab_apply]
  rfl

/-- The final combine at `(p, q)`. -/
theorem k3_apply (v0 v2 v4 : Vec Ideal S5000x1 .f32) (v8 : Vec Ideal S1x1 .f32) (p : Fin 5000) (q : Fin 1) :
    k3_pay1 v0 v2 v4 v8 (ix2 p q)
      = v0 (ix2 p (0 : Fin 1)) * (v2 (ix2 p (0 : Fin 1)) + v4 (ix2 p (0 : Fin 1))) + v8 (ix2 (0 : Fin 1) (0 : Fin 1)) := by
  obtain rfl : q = 0 := Subsingleton.elim _ _
  unfold k3_pay1
  simp only [shapeCast_self]
  refine congrArg₂ (· + ·) rfl (broadcastTo_1b_ab_apply _ _ p (0 : Fin 1))

end Cert.KernelIdeal.Body

end
-- ==== Proof.Region0.lean ====
/-
  The first region, read as a whole array.

  The grid has ten points; point `t` works on rows `5000 t … 5000 t + 4999`: it reads those rows of the masked numeric
  input, of the node features and of the node scales, and the whole of the projection's weight row, bias row, slope row
  and of the first layer's weight matrix, and writes those rows of the output. So the output array ends holding, at row
  `n` and column `q`, the row function of row `n` of the arrays the region finds: the ten tiles cover every row.
-/
import proofs.«181795_j20581483283116_2_alg».proof.Proof.Gen.KernelIdeal.Frame
import proofs.«181795_j20581483283116_2_alg».proof.Proof.Bodies

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx GcnLaw

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array, as one function of the arrays it finds on entry. -/
def out (c : Dev nD) : S50000x128.Idx → EReal := fun i =>
  firstRows (N := 50000) (V c main_v13) (V c main_v11) (V c main_arg2) (V c main_arg4) (V c main_v14) (V c main_v15) (V c main_v21) (i 0) (i 1)

/-- The index maps over the grid: a row window's block index is the output's on the row axis and `0` on the column
    axis, a parameter window's block index is `(0, 0)`, and the output's block index is the grid point. -/
theorem idx_facts : ∀ t : Fin cfg0.N,
    win0_0.index t (0 : Fin 2) = win0_7.index t (0 : Fin 2)
    ∧ win0_0.index t (1 : Fin 2) = 0
    ∧ win0_1.index t (0 : Fin 2) = win0_7.index t (0 : Fin 2)
    ∧ win0_1.index t (1 : Fin 2) = 0
    ∧ win0_2.index t (0 : Fin 2) = win0_7.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- What point `t` writes back is block `t` of `out`: the body's stored value at a row of the block is the row function at
    the block's row of the array, every input block read where the output's rectangle says. -/
theorem flushed_eq (c : Dev nD) (t : Fin cfg0.N) :
    (dat0 V c).flushed 7 t = ((cfg0.win 7).blk t).view.read (Elt Ideal) (out V c) := by
  show (cfg0.win 7).cut (grid0.coords t) ((dat0 V c).after 7 t) = _
  rw [after0_7]
  unfold out0_7
  rw [View.canon_unit_zero hz]
  simp only [View.ld_unit_zero (S := S5000x1) hz, View.ld_unit_zero (S := S5000x128) hz, View.ld_unit_zero (S := S1x128) hz, View.ld_unit_zero (S := S128x128) hz]
  obtain ⟨e00, e01, e10, e11, e20, e21, e30, e31, e40, e41, e50, e51, e60, e61, eW0, eW1⟩ := idx_facts t
  have ht : t.val < 10 := t.isLt
  funext j
  obtain ⟨p, q, rfl⟩ : ∃ (p : Fin 5000) (q : Fin 128), j = ix2 p q := ⟨j 0, j 1, eq_ix2 j⟩
  obtain ⟨n, hn⟩ : ∃ n : Fin 50000, n.val = win0_7.index t (0 : Fin 2) * 5000 + p.val := ⟨⟨_, by omega⟩, rfl⟩
  have hI : ((cfg0.win 7).blk t).view.emb (ix2 p q) = (ix2 n q : S50000x128.Idx) := funext fun a => Fin.ext (by
    match a with
    | ⟨0, _⟩ => show win0_7.index t (0 : Fin 2) * 5000 + 1 * p.val = n.val; omega
    | ⟨1, _⟩ => show win0_7.index t (1 : Fin 2) * 128 + 1 * q.val = q.val; omega)
  have h0 : ((cfg0.win 2).blk t).view.emb (ix2 p (0 : Fin 1)) = (ix2 n (0 : Fin 1) : S50000x1.Idx) := funext fun a => Fin.ext (by
    match a with
    | ⟨0, _⟩ => show win0_2.index t (0 : Fin 2) * 5000 + 1 * p.val = n.val; omega
    | ⟨1, _⟩ => show win0_2.index t (1 : Fin 2) * 1 + 1 * 0 = 0; omega)
  have h1 : ((cfg0.win 0).blk t).view.emb (ix2 p (0 : Fin 1)) = (ix2 n (0 : Fin 1) : S50000x1.Idx) := funext fun a => Fin.ext (by
    match a with
    | ⟨0, _⟩ => show win0_0.index t (0 : Fin 2) * 5000 + 1 * p.val = n.val; omega
    | ⟨1, _⟩ => show win0_0.index t (1 : Fin 2) * 1 + 1 * 0 = 0; omega)
  have h2 : ∀ k : Fin 128, ((cfg0.win 3).blk t).view.emb (ix2 (0 : Fin 1) k) = (ix2 (0 : Fin 1) k : S1x128.Idx) := fun k => funext fun a => Fin.ext (by
    match a with
    | ⟨0, _⟩ => show win0_3.index t (0 : Fin 2) * 1 + 1 * 0 = 0; omega
    | ⟨1, _⟩ => show win0_3.index t (1 : Fin 2) * 128 + 1 * k.val = k.val; omega)
  have h3 : ∀ k : Fin 128, ((cfg0.win 4).blk t).view.emb (ix2 (0 : Fin 1) k) = (ix2 (0 : Fin 1) k : S1x128.Idx) := fun k => funext fun a => Fin.ext (by
    match a with
    | ⟨0, _⟩ => show win0_4.index t (0 : Fin 2) * 1 + 1 * 0 = 0; omega
    | ⟨1, _⟩ => show win0_4.index t (1 : Fin 2) * 128 + 1 * k.val = k.val; omega)
  have h4 : ∀ k : Fin 128, ((cfg0.win 5).blk t).view.emb (ix2 (0 : Fin 1) k) = (ix2 (0 : Fin 1) k : S1x128.Idx) := fun k => funext fun a => Fin.ext (by
    match a with
    | ⟨0, _⟩ => show win0_5.index t (0 : Fin 2) * 1 + 1 * 0 = 0; omega
    | ⟨1, _⟩ => show win0_5.index t (1 : Fin 2) * 128 + 1 * k.val = k.val; omega)
  have h5 : ∀ k : Fin 128, ((cfg0.win 1).blk t).view.emb (ix2 p k) = (ix2 n k : S50000x128.Idx) := fun k => funext fun a => Fin.ext (by
    match a with
    | ⟨0, _⟩ => show win0_1.index t (0 : Fin 2) * 5000 + 1 * p.val = n.val; omega
    | ⟨1, _⟩ => show win0_1.index t (1 : Fin 2) * 128 + 1 * k.val = k.val; omega)
  have h6 : ∀ k : Fin 128, ((cfg0.win 6).blk t).view.emb (ix2 k q) = (ix2 k q : S128x128.Idx) := fun k => funext fun a => Fin.ext (by
    match a with
    | ⟨0, _⟩ => show win0_6.index t (0 : Fin 2) * 128 + 1 * k.val = k.val; omega
    | ⟨1, _⟩ => show win0_6.index t (1 : Fin 2) * 128 + 1 * q.val = q.val; omega)
  refine (Body.k0_apply (iblk0 V c 0 t) (iblk0 V c 3 t) (iblk0 V c 4 t) (iblk0 V c 5 t) (iblk0 V c 1 t) (iblk0 V c 6 t) (iblk0 V c 2 t) p q).trans ?_
  rw [View.read_apply, hI]
  have r0 : iblk0 V c 2 t (ix2 p (0 : Fin 1)) = V c main_v11 (ix2 n (0 : Fin 1) : S50000x1.Idx) := by
    show V c main_v11 (((cfg0.win 2).blk t).view.emb (ix2 p (0 : Fin 1))) = _
    rw [h0]
  have r1 : iblk0 V c 0 t (ix2 p (0 : Fin 1)) = V c main_v13 (ix2 n (0 : Fin 1) : S50000x1.Idx) := by
    show V c main_v13 (((cfg0.win 0).blk t).view.emb (ix2 p (0 : Fin 1))) = _
    rw [h1]
  have r2 : ∀ k : Fin 128, iblk0 V c 3 t (ix2 (0 : Fin 1) k) = V c main_arg4 (ix2 (0 : Fin 1) k : S1x128.Idx) := fun k => by
    show V c main_arg4 (((cfg0.win 3).blk t).view.emb (ix2 (0 : Fin 1) k)) = _
    rw [h2 k]
  have r3 : ∀ k : Fin 128, iblk0 V c 4 t (ix2 (0 : Fin 1) k) = V c main_v14 (ix2 (0 : Fin 1) k : S1x128.Idx) := fun k => by
    show V c main_v14 (((cfg0.win 4).blk t).view.emb (ix2 (0 : Fin 1) k)) = _
    rw [h3 k]
  have r4 : ∀ k : Fin 128, iblk0 V c 5 t (ix2 (0 : Fin 1) k) = V c main_v15 (ix2 (0 : Fin 1) k : S1x128.Idx) := fun k => by
    show V c main_v15 (((cfg0.win 5).blk t).view.emb (ix2 (0 : Fin 1) k)) = _
    rw [h4 k]
  have r5 : ∀ k : Fin 128, iblk0 V c 1 t (ix2 p k) = V c main_arg2 (ix2 n k : S50000x128.Idx) := fun k => by
    show V c main_arg2 (((cfg0.win 1).blk t).view.emb (ix2 p k)) = _
    rw [h5 k]
  have r6 : ∀ k : Fin 128, iblk0 V c 6 t (ix2 k q) = V c main_v21 (ix2 k q : S128x128.Idx) := fun k => by
    show V c main_v21 (((cfg0.win 6).blk t).view.emb (ix2 k q)) = _
    rw [h6 k]
  simp only [r0, r1, r2, r3, r4, r5, r6]
  rfl

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v24).slice (win0_7.rect t)).set ↔ _
  rw [View.set_slice_whole, Rect.mem_set_unit]
  exact Iff.rfl

/-- The ten row tiles cover the array: row `x` is in the tile of point `x / 5000`. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hlt : (i 0).val / 5000 < 10 := by omega
  obtain ⟨-, -, -, -, -, -, -, -, -, -, -, -, -, -, eW0, eW1⟩ := idx_facts ⟨(i 0).val / 5000, hlt⟩
  have eW0' : win0_7.index ⟨(i 0).val / 5000, hlt⟩ (0 : Fin 2) = (i 0).val / 5000 := eW0
  refine ⟨⟨(i 0).val / 5000, hlt⟩, flush0_7 _, ?_⟩
  rw [mem_blk]
  intro a
  match a with
  | ⟨0, _⟩ => show win0_7.index ⟨(i 0).val / 5000, hlt⟩ (0 : Fin 2) * 5000 ≤ (i 0).val ∧ (i 0).val < win0_7.index ⟨(i 0).val / 5000, hlt⟩ (0 : Fin 2) * 5000 + 5000; omega
  | ⟨1, _⟩ => show win0_7.index ⟨(i 0).val / 5000, hlt⟩ (1 : Fin 2) * 128 ≤ (i 1).val ∧ (i 1).val < win0_7.index ⟨(i 0).val / 5000, hlt⟩ (1 : Fin 2) * 128 + 128; omega

/-- THE ARRAY after the region: `out` of the arrays the region finds, whatever those are. -/
theorem final (c : Dev nD) : (dat0 V c).arrAt 7 cfg0.N = out V c :=
  (dat0 V c).arrAt_eq_of_cover 7 (out V c) (fun t _ => flushed_eq V c t) cover

end Cert.KernelIdeal.Region0

end
-- ==== Proof.Region1.lean ====
/-
  The second region, read as a whole array.

  Point `t` of the ten reads rows `5000 t … 5000 t + 4999` of the aggregated rows, of the previous layer's pre-scaled
  rows and of the node scales, and the whole of the bias row, the slope row and the next weight matrix, and writes those
  rows of the output: the output array ends holding the combine-and-transform row function of the arrays the region finds.
-/
import proofs.«181795_j20581483283116_2_alg».proof.Proof.Gen.KernelIdeal.Frame
import proofs.«181795_j20581483283116_2_alg».proof.Proof.Bodies

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx GcnLaw

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array, as one function of the arrays it finds on entry. -/
def out (c : Dev nD) : S50000x128.Idx → EReal := fun i =>
  combineRows (N := 50000) (C := 128) (V c main_v34) (V c main_v24) (V c main_v11) (V c main_v16) (V c main_v17) (V c main_v22) (i 0) (i 1)

/-- The index maps over the grid: a row window's block index is the output's on the row axis and `0` on the column
    axis, a parameter window's block index is `(0, 0)`, and the output's block index is the grid point. -/
theorem idx_facts : ∀ t : Fin cfg1.N,
    win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = win1_6.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- What point `t` writes back is block `t` of `out`: the body's stored value at a row of the block is the row function at
    the block's row of the array, every input block read where the output's rectangle says. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz, View.ld_unit_zero (S := S128x128) hz]
  obtain ⟨e00, e01, e10, e11, e20, e21, e30, e31, e40, e41, e50, e51, eW0, eW1⟩ := idx_facts t
  have ht : t.val < 10 := t.isLt
  funext j
  obtain ⟨p, q, rfl⟩ : ∃ (p : Fin 5000) (q : Fin 128), j = ix2 p q := ⟨j 0, j 1, eq_ix2 j⟩
  obtain ⟨n, hn⟩ : ∃ n : Fin 50000, n.val = win1_6.index t (0 : Fin 2) * 5000 + p.val := ⟨⟨_, by omega⟩, rfl⟩
  have hI : ((cfg1.win 6).blk t).view.emb (ix2 p q) = (ix2 n q : S50000x128.Idx) := funext fun a => Fin.ext (by
    match a with
    | ⟨0, _⟩ => show win1_6.index t (0 : Fin 2) * 5000 + 1 * p.val = n.val; omega
    | ⟨1, _⟩ => show win1_6.index t (1 : Fin 2) * 128 + 1 * q.val = q.val; omega)
  have h0 : ((cfg1.win 2).blk t).view.emb (ix2 p (0 : Fin 1)) = (ix2 n (0 : Fin 1) : S50000x1.Idx) := funext fun a => Fin.ext (by
    match a with
    | ⟨0, _⟩ => show win1_2.index t (0 : Fin 2) * 5000 + 1 * p.val = n.val; omega
    | ⟨1, _⟩ => show win1_2.index t (1 : Fin 2) * 1 + 1 * 0 = 0; omega)
  have h1 : ∀ k : Fin 128, ((cfg1.win 0).blk t).view.emb (ix2 p k) = (ix2 n k : S50000x128.Idx) := fun k => funext fun a => Fin.ext (by
    match a with
    | ⟨0, _⟩ => show win1_0.index t (0 : Fin 2) * 5000 + 1 * p.val = n.val; omega
    | ⟨1, _⟩ => show win1_0.index t (1 : Fin 2) * 128 + 1 * k.val = k.val; omega)
  have h2 : ∀ k : Fin 128, ((cfg1.win 1).blk t).view.emb (ix2 p k) = (ix2 n k : S50000x128.Idx) := fun k => funext fun a => Fin.ext (by
    match a with
    | ⟨0, _⟩ => show win1_1.index t (0 : Fin 2) * 5000 + 1 * p.val = n.val; omega
    | ⟨1, _⟩ => show win1_1.index t (1 : Fin 2) * 128 + 1 * k.val = k.val; omega)
  have h3 : ∀ k : Fin 128, ((cfg1.win 3).blk t).view.emb (ix2 (0 : Fin 1) k) = (ix2 (0 : Fin 1) k : S1x128.Idx) := fun k => funext fun a => Fin.ext (by
    match a with
    | ⟨0, _⟩ => show win1_3.index t (0 : Fin 2) * 1 + 1 * 0 = 0; omega
    | ⟨1, _⟩ => show win1_3.index t (1 : Fin 2) * 128 + 1 * k.val = k.val; omega)
  have h4 : ∀ k : Fin 128, ((cfg1.win 4).blk t).view.emb (ix2 (0 : Fin 1) k) = (ix2 (0 : Fin 1) k : S1x128.Idx) := fun k => funext fun a => Fin.ext (by
    match a with
    | ⟨0, _⟩ => show win1_4.index t (0 : Fin 2) * 1 + 1 * 0 = 0; omega
    | ⟨1, _⟩ => show win1_4.index t (1 : Fin 2) * 128 + 1 * k.val = k.val; omega)
  have h5 : ∀ k : Fin 128, ((cfg1.win 5).blk t).view.emb (ix2 k q) = (ix2 k q : S128x128.Idx) := fun k => funext fun a => Fin.ext (by
    match a with
    | ⟨0, _⟩ => show win1_5.index t (0 : Fin 2) * 128 + 1 * k.val = k.val; omega
    | ⟨1, _⟩ => show win1_5.index t (1 : Fin 2) * 128 + 1 * q.val = q.val; omega)
  refine (Body.k1_apply (iblk1 V c 2 t) (iblk1 V c 0 t) (iblk1 V c 1 t) (iblk1 V c 3 t) (iblk1 V c 4 t) (iblk1 V c 5 t) (iblk1 V c 2 t) p q).trans ?_
  rw [View.read_apply, hI]
  have r0 : iblk1 V c 2 t (ix2 p (0 : Fin 1)) = V c main_v11 (ix2 n (0 : Fin 1) : S50000x1.Idx) := by
    show V c main_v11 (((cfg1.win 2).blk t).view.emb (ix2 p (0 : Fin 1))) = _
    rw [h0]
  have r1 : ∀ k : Fin 128, iblk1 V c 0 t (ix2 p k) = V c main_v34 (ix2 n k : S50000x128.Idx) := fun k => by
    show V c main_v34 (((cfg1.win 0).blk t).view.emb (ix2 p k)) = _
    rw [h1 k]
  have r2 : ∀ k : Fin 128, iblk1 V c 1 t (ix2 p k) = V c main_v24 (ix2 n k : S50000x128.Idx) := fun k => by
    show V c main_v24 (((cfg1.win 1).blk t).view.emb (ix2 p k)) = _
    rw [h2 k]
  have r3 : ∀ k : Fin 128, iblk1 V c 3 t (ix2 (0 : Fin 1) k) = V c main_v16 (ix2 (0 : Fin 1) k : S1x128.Idx) := fun k => by
    show V c main_v16 (((cfg1.win 3).blk t).view.emb (ix2 (0 : Fin 1) k)) = _
    rw [h3 k]
  have r4 : ∀ k : Fin 128, iblk1 V c 4 t (ix2 (0 : Fin 1) k) = V c main_v17 (ix2 (0 : Fin 1) k : S1x128.Idx) := fun k => by
    show V c main_v17 (((cfg1.win 4).blk t).view.emb (ix2 (0 : Fin 1) k)) = _
    rw [h4 k]
  have r5 : ∀ k : Fin 128, iblk1 V c 5 t (ix2 k q) = V c main_v22 (ix2 k q : S128x128.Idx) := fun k => by
    show V c main_v22 (((cfg1.win 5).blk t).view.emb (ix2 k q)) = _
    rw [h5 k]
  simp only [r0, r1, r2, r3, r4, r5]
  rfl

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- The ten row tiles cover the array: row `x` is in the tile of point `x / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 5000 < 10 := by omega
  obtain ⟨-, -, -, -, -, -, -, -, -, -, -, -, eW0, eW1⟩ := idx_facts ⟨(i 0).val / 5000, hlt⟩
  have eW0' : win1_6.index ⟨(i 0).val / 5000, hlt⟩ (0 : Fin 2) = (i 0).val / 5000 := eW0
  refine ⟨⟨(i 0).val / 5000, hlt⟩, flush1_6 _, ?_⟩
  rw [mem_blk]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

/-- THE ARRAY after the region: `out` of the arrays the region finds, whatever those are. -/
theorem final (c : Dev nD) : (dat1 V c).arrAt 6 cfg1.N = out V c :=
  (dat1 V c).arrAt_eq_of_cover 6 (out V c) (fun t _ => flushed_eq V c t) cover

end Cert.KernelIdeal.Region1

end
-- ==== Proof.Region2.lean ====
/-
  The third region, read as a whole array.

  As the second, with a weight matrix of one column: the output is a one-column array, and point `t` of the ten writes
  its rows `5000 t … 5000 t + 4999`.
-/
import proofs.«181795_j20581483283116_2_alg».proof.Proof.Gen.KernelIdeal.Frame
import proofs.«181795_j20581483283116_2_alg».proof.Proof.Bodies

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx GcnLaw

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array, as one function of the arrays it finds on entry. -/
def out (c : Dev nD) : S50000x1.Idx → EReal := fun i =>
  combineRows (N := 50000) (C := 1) (V c main_v45) (V c main_v35) (V c main_v11) (V c main_v18) (V c main_v19) (V c main_v23) (i 0) (i 1)

/-- The index maps over the grid: a row window's block index is the output's on the row axis and `0` on the column
    axis, a parameter window's block index is `(0, 0)`, and the output's block index is the grid point. -/
theorem idx_facts : ∀ t : Fin cfg2.N,
    win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = win2_6.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- What point `t` writes back is block `t` of `out`: the body's stored value at a row of the block is the row function at
    the block's row of the array, every input block read where the output's rectangle says. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S1x128) hz, View.ld_unit_zero (S := S128x1) hz]
  obtain ⟨e00, e01, e10, e11, e20, e21, e30, e31, e40, e41, e50, e51, eW0, eW1⟩ := idx_facts t
  have ht : t.val < 10 := t.isLt
  funext j
  obtain ⟨p, q, rfl⟩ : ∃ (p : Fin 5000) (q : Fin 1), j = ix2 p q := ⟨j 0, j 1, eq_ix2 j⟩
  obtain rfl : q = 0 := Subsingleton.elim _ _
  obtain ⟨n, hn⟩ : ∃ n : Fin 50000, n.val = win2_6.index t (0 : Fin 2) * 5000 + p.val := ⟨⟨_, by omega⟩, rfl⟩
  have hI : ((cfg2.win 6).blk t).view.emb (ix2 p (0 : Fin 1)) = (ix2 n (0 : Fin 1) : S50000x1.Idx) := funext fun a => Fin.ext (by
    match a with
    | ⟨0, _⟩ => show win2_6.index t (0 : Fin 2) * 5000 + 1 * p.val = n.val; omega
    | ⟨1, _⟩ => show win2_6.index t (1 : Fin 2) * 1 + 1 * 0 = 0; omega)
  have h0 : ((cfg2.win 2).blk t).view.emb (ix2 p (0 : Fin 1)) = (ix2 n (0 : Fin 1) : S50000x1.Idx) := funext fun a => Fin.ext (by
    match a with
    | ⟨0, _⟩ => show win2_2.index t (0 : Fin 2) * 5000 + 1 * p.val = n.val; omega
    | ⟨1, _⟩ => show win2_2.index t (1 : Fin 2) * 1 + 1 * 0 = 0; omega)
  have h1 : ∀ k : Fin 128, ((cfg2.win 0).blk t).view.emb (ix2 p k) = (ix2 n k : S50000x128.Idx) := fun k => funext fun a => Fin.ext (by
    match a with
    | ⟨0, _⟩ => show win2_0.index t (0 : Fin 2) * 5000 + 1 * p.val = n.val; omega
    | ⟨1, _⟩ => show win2_0.index t (1 : Fin 2) * 128 + 1 * k.val = k.val; omega)
  have h2 : ∀ k : Fin 128, ((cfg2.win 1).blk t).view.emb (ix2 p k) = (ix2 n k : S50000x128.Idx) := fun k => funext fun a => Fin.ext (by
    match a with
    | ⟨0, _⟩ => show win2_1.index t (0 : Fin 2) * 5000 + 1 * p.val = n.val; omega
    | ⟨1, _⟩ => show win2_1.index t (1 : Fin 2) * 128 + 1 * k.val = k.val; omega)
  have h3 : ∀ k : Fin 128, ((cfg2.win 3).blk t).view.emb (ix2 (0 : Fin 1) k) = (ix2 (0 : Fin 1) k : S1x128.Idx) := fun k => funext fun a => Fin.ext (by
    match a with
    | ⟨0, _⟩ => show win2_3.index t (0 : Fin 2) * 1 + 1 * 0 = 0; omega
    | ⟨1, _⟩ => show win2_3.index t (1 : Fin 2) * 128 + 1 * k.val = k.val; omega)
  have h4 : ∀ k : Fin 128, ((cfg2.win 4).blk t).view.emb (ix2 (0 : Fin 1) k) = (ix2 (0 : Fin 1) k : S1x128.Idx) := fun k => funext fun a => Fin.ext (by
    match a with
    | ⟨0, _⟩ => show win2_4.index t (0 : Fin 2) * 1 + 1 * 0 = 0; omega
    | ⟨1, _⟩ => show win2_4.index t (1 : Fin 2) * 128 + 1 * k.val = k.val; omega)
  have h5 : ∀ k : Fin 128, ((cfg2.win 5).blk t).view.emb (ix2 k (0 : Fin 1)) = (ix2 k (0 : Fin 1) : S128x1.Idx) := fun k => funext fun a => Fin.ext (by
    match a with
    | ⟨0, _⟩ => show win2_5.index t (0 : Fin 2) * 128 + 1 * k.val = k.val; omega
    | ⟨1, _⟩ => show win2_5.index t (1 : Fin 2) * 1 + 1 * 0 = 0; omega)
  refine (Body.k2_apply (iblk2 V c 2 t) (iblk2 V c 0 t) (iblk2 V c 1 t) (iblk2 V c 3 t) (iblk2 V c 4 t) (iblk2 V c 5 t) (iblk2 V c 2 t) p (0 : Fin 1)).trans ?_
  rw [View.read_apply, hI]
  have r0 : iblk2 V c 2 t (ix2 p (0 : Fin 1)) = V c main_v11 (ix2 n (0 : Fin 1) : S50000x1.Idx) := by
    show V c main_v11 (((cfg2.win 2).blk t).view.emb (ix2 p (0 : Fin 1))) = _
    rw [h0]
  have r1 : ∀ k : Fin 128, iblk2 V c 0 t (ix2 p k) = V c main_v45 (ix2 n k : S50000x128.Idx) := fun k => by
    show V c main_v45 (((cfg2.win 0).blk t).view.emb (ix2 p k)) = _
    rw [h1 k]
  have r2 : ∀ k : Fin 128, iblk2 V c 1 t (ix2 p k) = V c main_v35 (ix2 n k : S50000x128.Idx) := fun k => by
    show V c main_v35 (((cfg2.win 1).blk t).view.emb (ix2 p k)) = _
    rw [h2 k]
  have r3 : ∀ k : Fin 128, iblk2 V c 3 t (ix2 (0 : Fin 1) k) = V c main_v18 (ix2 (0 : Fin 1) k : S1x128.Idx) := fun k => by
    show V c main_v18 (((cfg2.win 3).blk t).view.emb (ix2 (0 : Fin 1) k)) = _
    rw [h3 k]
  have r4 : ∀ k : Fin 128, iblk2 V c 4 t (ix2 (0 : Fin 1) k) = V c main_v19 (ix2 (0 : Fin 1) k : S1x128.Idx) := fun k => by
    show V c main_v19 (((cfg2.win 4).blk t).view.emb (ix2 (0 : Fin 1) k)) = _
    rw [h4 k]
  have r5 : ∀ k : Fin 128, iblk2 V c 5 t (ix2 k (0 : Fin 1)) = V c main_v23 (ix2 k (0 : Fin 1) : S128x1.Idx) := fun k => by
    show V c main_v23 (((cfg2.win 5).blk t).view.emb (ix2 k (0 : Fin 1))) = _
    rw [h5 k]
  simp only [r0, r1, r2, r3, r4, r5]
  rfl

/-- An index of the array is in point `t`'s block iff each coordinate is in the block's range on its axis. -/
theorem mem_blk (t : Fin cfg2.N) (i : S50000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v46).slice (win2_6.rect t)).set ↔ _
  rw [View.set_slice_whole, Rect.mem_set_unit]
  exact Iff.rfl

/-- The ten row tiles cover the array: row `x` is in the tile of point `x / 5000`. -/
theorem cover (i : S50000x1.Idx) : ∃ t : Fin cfg2.N, (cfg2.win 6).flush t = true ∧ i ∈ ((cfg2.win 6).blk t).view.set := by
  have hi0 : (i 0).val < 50000 := (i 0).isLt
  have hi1 : (i 1).val < 1 := (i 1).isLt
  have hlt : (i 0).val / 5000 < 10 := by omega
  obtain ⟨-, -, -, -, -, -, -, -, -, -, -, -, eW0, eW1⟩ := idx_facts ⟨(i 0).val / 5000, hlt⟩
  have eW0' : win2_6.index ⟨(i 0).val / 5000, hlt⟩ (0 : Fin 2) = (i 0).val / 5000 := eW0
  refine ⟨⟨(i 0).val / 5000, hlt⟩, flush2_6 _, ?_⟩
  rw [mem_blk]
  intro a
  match a with
  | ⟨0, _⟩ => show win2_6.index ⟨(i 0).val / 5000, hlt⟩ (0 : Fin 2) * 5000 ≤ (i 0).val ∧ (i 0).val < win2_6.index ⟨(i 0).val / 5000, hlt⟩ (0 : Fin 2) * 5000 + 5000; omega
  | ⟨1, _⟩ => show win2_6.index ⟨(i 0).val / 5000, hlt⟩ (1 : Fin 2) * 1 ≤ (i 1).val ∧ (i 1).val < win2_6.index ⟨(i 0).val / 5000, hlt⟩ (1 : Fin 2) * 1 + 1; omega

/-- THE ARRAY after the region: `out` of the arrays the region finds, whatever those are. -/
theorem final (c : Dev nD) : (dat2 V c).arrAt 6 cfg2.N = out V c :=
  (dat2 V c).arrAt_eq_of_cover 6 (out V c) (fun t _ => flushed_eq V c t) cover

end Cert.KernelIdeal.Region2

end
-- ==== Proof.Region3.lean ====
/-
  The last region, read as a whole array.

  Point `t` of the ten reads rows `5000 t … 5000 t + 4999` of the aggregated column, of the previous layer's pre-scaled
  column and of the node scales, and the one bias, and writes those rows of the output column: the last combine.
-/
import proofs.«181795_j20581483283116_2_alg».proof.Proof.Gen.KernelIdeal.Frame
import proofs.«181795_j20581483283116_2_alg».proof.Proof.Bodies

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx GcnLaw

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array, as one function of the arrays it finds on entry. -/
def out (c : Dev nD) : S50000x1.Idx → EReal := fun i =>
  finalRows (N := 50000) (V c main_v56) (V c main_v46) (V c main_v11) (V c main_v20) (i 0)

/-- The index maps over the grid: a row window's block index is the output's on the row axis and `0` on the column
    axis, a parameter window's block index is `(0, 0)`, and the output's block index is the grid point. -/
theorem idx_facts : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- What point `t` writes back is block `t` of `out`: the body's stored value at a row of the block is the row function at
    the block's row of the array, every input block read where the output's rectangle says. -/
theorem flushed_eq (c : Dev nD) (t : Fin cfg3.N) :
    (dat3 V c).flushed 4 t = ((cfg3.win 4).blk t).view.read (Elt Ideal) (out V c) := by
  show (cfg3.win 4).cut (grid3.coords t) ((dat3 V c).after 4 t) = _
  rw [after3_4]
  unfold out3_4
  rw [View.canon_unit_zero hz]
  simp only [View.ld_unit_zero (S := S5000x1) hz, View.ld_unit_zero (S := S1x1) hz]
  obtain ⟨e00, e01, e10, e11, e20, e21, e30, e31, eW0, eW1⟩ := idx_facts t
  have ht : t.val < 10 := t.isLt
  funext j
  obtain ⟨p, q, rfl⟩ : ∃ (p : Fin 5000) (q : Fin 1), j = ix2 p q := ⟨j 0, j 1, eq_ix2 j⟩
  obtain rfl : q = 0 := Subsingleton.elim _ _
  obtain ⟨n, hn⟩ : ∃ n : Fin 50000, n.val = win3_4.index t (0 : Fin 2) * 5000 + p.val := ⟨⟨_, by omega⟩, rfl⟩
  have hI : ((cfg3.win 4).blk t).view.emb (ix2 p (0 : Fin 1)) = (ix2 n (0 : Fin 1) : S50000x1.Idx) := funext fun a => Fin.ext (by
    match a with
    | ⟨0, _⟩ => show win3_4.index t (0 : Fin 2) * 5000 + 1 * p.val = n.val; omega
    | ⟨1, _⟩ => show win3_4.index t (1 : Fin 2) * 1 + 1 * 0 = 0; omega)
  have h0 : ((cfg3.win 2).blk t).view.emb (ix2 p (0 : Fin 1)) = (ix2 n (0 : Fin 1) : S50000x1.Idx) := funext fun a => Fin.ext (by
    match a with
    | ⟨0, _⟩ => show win3_2.index t (0 : Fin 2) * 5000 + 1 * p.val = n.val; omega
    | ⟨1, _⟩ => show win3_2.index t (1 : Fin 2) * 1 + 1 * 0 = 0; omega)
  have h1 : ((cfg3.win 0).blk t).view.emb (ix2 p (0 : Fin 1)) = (ix2 n (0 : Fin 1) : S50000x1.Idx) := funext fun a => Fin.ext (by
    match a with
    | ⟨0, _⟩ => show win3_0.index t (0 : Fin 2) * 5000 + 1 * p.val = n.val; omega
    | ⟨1, _⟩ => show win3_0.index t (1 : Fin 2) * 1 + 1 * 0 = 0; omega)
  have h2 : ((cfg3.win 1).blk t).view.emb (ix2 p (0 : Fin 1)) = (ix2 n (0 : Fin 1) : S50000x1.Idx) := funext fun a => Fin.ext (by
    match a with
    | ⟨0, _⟩ => show win3_1.index t (0 : Fin 2) * 5000 + 1 * p.val = n.val; omega
    | ⟨1, _⟩ => show win3_1.index t (1 : Fin 2) * 1 + 1 * 0 = 0; omega)
  have h3 : ((cfg3.win 3).blk t).view.emb (ix2 (0 : Fin 1) (0 : Fin 1)) = (ix2 (0 : Fin 1) (0 : Fin 1) : S1x1.Idx) := funext fun a => Fin.ext (by
    match a with
    | ⟨0, _⟩ => show win3_3.index t (0 : Fin 2) * 1 + 1 * 0 = 0; omega
    | ⟨1, _⟩ => show win3_3.index t (1 : Fin 2) * 1 + 1 * 0 = 0; omega)
  refine (Body.k3_apply (iblk3 V c 2 t) (iblk3 V c 0 t) (iblk3 V c 1 t) (iblk3 V c 3 t) p (0 : Fin 1)).trans ?_
  rw [View.read_apply, hI]
  have r0 : iblk3 V c 2 t (ix2 p (0 : Fin 1)) = V c main_v11 (ix2 n (0 : Fin 1) : S50000x1.Idx) := by
    show V c main_v11 (((cfg3.win 2).blk t).view.emb (ix2 p (0 : Fin 1))) = _
    rw [h0]
  have r1 : iblk3 V c 0 t (ix2 p (0 : Fin 1)) = V c main_v56 (ix2 n (0 : Fin 1) : S50000x1.Idx) := by
    show V c main_v56 (((cfg3.win 0).blk t).view.emb (ix2 p (0 : Fin 1))) = _
    rw [h1]
  have r2 : iblk3 V c 1 t (ix2 p (0 : Fin 1)) = V c main_v46 (ix2 n (0 : Fin 1) : S50000x1.Idx) := by
    show V c main_v46 (((cfg3.win 1).blk t).view.emb (ix2 p (0 : Fin 1))) = _
    rw [h2]
  have r3 : iblk3 V c 3 t (ix2 (0 : Fin 1) (0 : Fin 1)) = V c main_v20 (ix2 (0 : Fin 1) (0 : Fin 1) : S1x1.Idx) := by
    show V c main_v20 (((cfg3.win 3).blk t).view.emb (ix2 (0 : Fin 1) (0 : Fin 1))) = _
    rw [h3]
  simp only [r0, r1, r2, r3]
  rfl

/-- An index of the array is in point `t`'s block iff each coordinate is in the block's range on its axis. -/
theorem mem_blk (t : Fin cfg3.N) (i : S50000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v57).slice (win3_4.rect t)).set ↔ _
  rw [View.set_slice_whole, Rect.mem_set_unit]
  exact Iff.rfl

/-- The ten row tiles cover the array: row `x` is in the tile of point `x / 5000`. -/
theorem cover (i : S50000x1.Idx) : ∃ t : Fin cfg3.N, (cfg3.win 4).flush t = true ∧ i ∈ ((cfg3.win 4).blk t).view.set := by
  have hi0 : (i 0).val < 50000 := (i 0).isLt
  have hi1 : (i 1).val < 1 := (i 1).isLt
  have hlt : (i 0).val / 5000 < 10 := by omega
  obtain ⟨-, -, -, -, -, -, -, -, eW0, eW1⟩ := idx_facts ⟨(i 0).val / 5000, hlt⟩
  have eW0' : win3_4.index ⟨(i 0).val / 5000, hlt⟩ (0 : Fin 2) = (i 0).val / 5000 := eW0
  refine ⟨⟨(i 0).val / 5000, hlt⟩, flush3_4 _, ?_⟩
  rw [mem_blk]
  intro a
  match a with
  | ⟨0, _⟩ => show win3_4.index ⟨(i 0).val / 5000, hlt⟩ (0 : Fin 2) * 5000 ≤ (i 0).val ∧ (i 0).val < win3_4.index ⟨(i 0).val / 5000, hlt⟩ (0 : Fin 2) * 5000 + 5000; omega
  | ⟨1, _⟩ => show win3_4.index ⟨(i 0).val / 5000, hlt⟩ (1 : Fin 2) * 1 ≤ (i 1).val ∧ (i 1).val < win3_4.index ⟨(i 0).val / 5000, hlt⟩ (1 : Fin 2) * 1 + 1; omega

/-- THE ARRAY after the region: `out` of the arrays the region finds, whatever those are. -/
theorem final (c : Dev nD) : (dat3 V c).arrAt 4 cfg3.N = out V c :=
  (dat3 V c).arrAt_eq_of_cover 4 (out V c) (fun t _ => flushed_eq V c t) cover

end Cert.KernelIdeal.Region3

end
-- ==== Proof.KernelValue.lean ====
/-
  The idealized kernel's result as one function of its argument arrays.

  The contents of the buffers at the nine segment boundaries are read back one segment at a time. A stretch of host
  operations gives each buffer it writes as its operations' term of the buffers it reads, and leaves every other buffer
  as it was. A region changes its output array only — to the row function of the arrays it finds (the region modules) —
  and leaves every other buffer, its input windows' arrays included, as entered. Naming each intermediate array once
  (edge endpoints, node scales, the masked numeric input, the parameter rows, and per layer the pre-scaled rows and their
  aggregate over incoming edges) keeps every step a one-line rewrite: the last boundary's contents at the result's buffer
  are `outK` of the arguments.
-/
import proofs.«181795_j20581483283116_2_alg».proof.Proof.Region0
import proofs.«181795_j20581483283116_2_alg».proof.Proof.Region1
import proofs.«181795_j20581483283116_2_alg».proof.Proof.Region2
import proofs.«181795_j20581483283116_2_alg».proof.Proof.Region3
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx GcnLaw

/-- The contents of an array of a given shape and element type, at the ideal values. -/
abbrev Cn (s : Shape) (e : EltTy) : Type := (⟨s, e⟩ : BufTy).Contents (Elt Ideal)

/-- The fifteen argument arrays. -/
structure Args where
  x0 : Cn S50000x1 .f32
  x1 : Cn S50000 .f32
  x2 : Cn S50000x128 .f32
  x3 : Cn S2x800000 .i32
  x4 : Cn S1x128 .f32
  x5 : Cn S128 .f32
  x6 : Cn S128 .f32
  x7 : Cn S128x128 .f32
  x8 : Cn S128 .f32
  x9 : Cn S128 .f32
  x10 : Cn S128x128 .f32
  x11 : Cn S128 .f32
  x12 : Cn S128 .f32
  x13 : Cn S128x1 .f32
  x14 : Cn S1 .f32

/-- Each edge's source node: row 0 of the edge list. -/
def src (a : Args) : Cn S800000 .i32 :=
  shapeCast _ (extractStridedSlice S1x800000 ![0, 0] a.x3 slices_S2x800000_S1x800000_0_0) shapeCasts_S1x800000_S800000
/-- Each edge's destination node: row 1 of the edge list. -/
def dst (a : Args) : Cn S800000 .i32 :=
  shapeCast _ (extractStridedSlice S1x800000 ![1, 0] a.x3 slices_S2x800000_S1x800000_1_0) shapeCasts_S1x800000_S800000
/-- The destinations as a column of scatter indices. -/
def dstIdx (a : Args) : Cn S800000x1 .i32 := broadcastInDim S800000x1 ![0] bcast_S800000_S800000x1_0 (dst a)
/-- The sources as a column of gather indices, a negative one wrapped around by the node count first. -/
def srcIdx (a : Args) : Cn S800000x1 .i32 :=
  broadcastInDim S800000x1 ![0] bcast_S800000_S800000x1_0
    (select (cmpi .slt (src a) (broadcastInDim S800000 ![] bcast_S_S800000 (constantI S_ 32 0#32)))
      (addi (src a) (broadcastInDim S800000 ![] bcast_S_S800000 (constantI S_ 32 50000#32))) (src a))
/-- The node scales: the reciprocal square root of one plus the in-degree. -/
def dis (a : Args) : Cn S50000 .f32 :=
  Host.rsqrt (F := Ideal) (addf
    (Host.scatterAdd (F := Ideal) scatter_S50000_S800000x1_S800000_n_0_0_1
      (broadcastInDim S50000 ![] bcast_S_S50000 (constant (F := Ideal) S_ .f32 0x00000000#32)) (dstIdx a)
      (broadcastInDim S800000 ![] bcast_S_S800000 (constant (F := Ideal) S_ .f32 0x3F800000#32)))
    (broadcastInDim S50000 ![] bcast_S_S50000 (constant (F := Ideal) S_ .f32 0x3F800000#32)))
/-- The node scales as a column. -/
def dis2 (a : Args) : Cn S50000x1 .f32 := broadcastInDim S50000x1 ![0] bcast_S50000_S50000x1_0 (dis a)
/-- The masked numeric input. -/
def nm (a : Args) : Cn S50000x1 .f32 := mulf (F := Ideal) (φ := .f32) a.x0 (broadcastInDim S50000x1 ![0] bcast_S50000_S50000x1_0 a.x1)
/-- A parameter vector as a one-row matrix. -/
def row128 (x : Cn S128 .f32) : Cn S1x128 .f32 := broadcastInDim S1x128 ![1] bcast_S128_S1x128_1 x
def row1 (x : Cn S1 .f32) : Cn S1x1 .f32 := broadcastInDim S1x1 ![1] bcast_S1_S1x1_1 x
/-- A weight matrix in the matrix unit's input format (the identity on the extended reals). -/
def bf (x : Cn S128x128 .f32) : Cn S128x128 .bf16 := truncf (F := Ideal) .bf16 x bitsLt_bf16_f32
def bf1 (x : Cn S128x1 .f32) : Cn S128x1 .bf16 := truncf (F := Ideal) .bf16 x bitsLt_bf16_f32
/-- The aggregate over incoming edges of 128-column rows: the rows gathered at the sources, added into the destinations. -/
def aggRows (a : Args) (hs : Cn S50000x128 .f32) : Cn S50000x128 .f32 :=
  Host.scatterAdd (F := Ideal) scatter_S50000x128_S800000x1_S800000x128_1_0_0_1
    (broadcastInDim S50000x128 ![] bcast_S_S50000x128 (constant (F := Ideal) S_ .f32 0x00000000#32)) (dstIdx a)
    (Host.gather gather_S50000x128_S800000x1_S800000x128_1_0_n_n_0_1_1128 hs (srcIdx a))
/-- The same for a one-column array. -/
def aggCol (a : Args) (hs : Cn S50000x1 .f32) : Cn S50000x1 .f32 :=
  Host.scatterAdd (F := Ideal) scatter_S50000x1_S800000x1_S800000x1_1_0_0_1
    (broadcastInDim S50000x1 ![] bcast_S_S50000x1 (constant (F := Ideal) S_ .f32 0x00000000#32)) (dstIdx a)
    (Host.gather gather_S50000x1_S800000x1_S800000x1_1_0_n_n_0_1_11 hs (srcIdx a))

/-- Layer 1's pre-scaled rows. -/
def hs1 (a : Args) : Cn S50000x128 .f32 := fun i =>
  firstRows (N := 50000) (nm a) (dis2 a) a.x2 a.x4 (row128 a.x5) (row128 a.x6) (bf a.x7) (i 0) (i 1)
def agg1 (a : Args) : Cn S50000x128 .f32 := aggRows a (hs1 a)
/-- Layer 2's pre-scaled rows. -/
def hs2 (a : Args) : Cn S50000x128 .f32 := fun i =>
  combineRows (N := 50000) (C := 128) (agg1 a) (hs1 a) (dis2 a) (row128 a.x8) (row128 a.x9) (bf a.x10) (i 0) (i 1)
def agg2 (a : Args) : Cn S50000x128 .f32 := aggRows a (hs2 a)
/-- Layer 3's pre-scaled column. -/
def hs3 (a : Args) : Cn S50000x1 .f32 := fun i =>
  combineRows (N := 50000) (C := 1) (agg2 a) (hs2 a) (dis2 a) (row128 a.x11) (row128 a.x12) (bf1 a.x13) (i 0) (i 1)
def agg3 (a : Args) : Cn S50000x1 .f32 := aggCol a (hs3 a)
/-- The last combine, a column. -/
def h3 (a : Args) : Cn S50000x1 .f32 := fun i =>
  finalRows (N := 50000) (agg3 a) (hs3 a) (dis2 a) (row1 a.x14) (i 0)
/-- THE KERNEL'S RESULT: that column as a vector. -/
def outK (a : Args) : Cn S50000 .f32 := shapeCast _ (h3 a) shapeCasts_S50000x1_S50000

variable (m : (ℓ : Loc nD τ sig) → Buf (Elt Ideal) ℓ) (ρ : Dev nD → PrngReg)

/-- The argument arrays a core is launched with. -/
def argsOf (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-- Region 0 changes its output array only: an input window's array ends as entered, and so does every buffer that is
    no array of the region. -/
theorem W2_other (c : Dev nD) (b : Ref sig .tc) (hb : b ≠ main_v24) :
    W2 m ρ c (Proc.devRef .tc b) = W1 m ρ c (Proc.devRef .tc b) := by
  by_cases h : ∃ w : Fin cfg0.W, Pipeline.arrRef spec0 w = b
  · obtain ⟨w, rfl⟩ := h
    have hin : (cfg0.win w).isOut = false :=
      (by decide : ∀ w : Fin cfg0.W, Pipeline.arrRef spec0 w ≠ main_v24 → (cfg0.win w).isOut = false) w hb
    exact (W2_arr m ρ c w).trans (((dat0 (V1 m ρ) c).arrAt_in w hin _).trans (A_eq0 (V1 m ρ) c w))
  · exact W2_of_ne m ρ c b fun w e => h ⟨w, e⟩

/-- Region 1 changes its output array only: an input window's array ends as entered, and so does every buffer that is
    no array of the region. -/
theorem W4_other (c : Dev nD) (b : Ref sig .tc) (hb : b ≠ main_v35) :
    W4 m ρ c (Proc.devRef .tc b) = W3 m ρ c (Proc.devRef .tc b) := by
  by_cases h : ∃ w : Fin cfg1.W, Pipeline.arrRef spec1 w = b
  · obtain ⟨w, rfl⟩ := h
    have hin : (cfg1.win w).isOut = false :=
      (by decide : ∀ w : Fin cfg1.W, Pipeline.arrRef spec1 w ≠ main_v35 → (cfg1.win w).isOut = false) w hb
    exact (W4_arr m ρ c w).trans (((dat1 (V3 m ρ) c).arrAt_in w hin _).trans (A_eq1 (V3 m ρ) c w))
  · exact W4_of_ne m ρ c b fun w e => h ⟨w, e⟩

/-- Region 2 changes its output array only: an input window's array ends as entered, and so does every buffer that is
    no array of the region. -/
theorem W6_other (c : Dev nD) (b : Ref sig .tc) (hb : b ≠ main_v46) :
    W6 m ρ c (Proc.devRef .tc b) = W5 m ρ c (Proc.devRef .tc b) := by
  by_cases h : ∃ w : Fin cfg2.W, Pipeline.arrRef spec2 w = b
  · obtain ⟨w, rfl⟩ := h
    have hin : (cfg2.win w).isOut = false :=
      (by decide : ∀ w : Fin cfg2.W, Pipeline.arrRef spec2 w ≠ main_v46 → (cfg2.win w).isOut = false) w hb
    exact (W6_arr m ρ c w).trans (((dat2 (V5 m ρ) c).arrAt_in w hin _).trans (A_eq2 (V5 m ρ) c w))
  · exact W6_of_ne m ρ c b fun w e => h ⟨w, e⟩

/-- Region 3 changes its output array only: an input window's array ends as entered, and so does every buffer that is
    no array of the region. -/
theorem W8_other (c : Dev nD) (b : Ref sig .tc) (hb : b ≠ main_v57) :
    W8 m ρ c (Proc.devRef .tc b) = W7 m ρ c (Proc.devRef .tc b) := by
  by_cases h : ∃ w : Fin cfg3.W, Pipeline.arrRef spec3 w = b
  · obtain ⟨w, rfl⟩ := h
    have hin : (cfg3.win w).isOut = false :=
      (by decide : ∀ w : Fin cfg3.W, Pipeline.arrRef spec3 w ≠ main_v57 → (cfg3.win w).isOut = false) w hb
    exact (W8_arr m ρ c w).trans (((dat3 (V7 m ρ) c).arrAt_in w hin _).trans (A_eq3 (V7 m ρ) c w))
  · exact W8_of_ne m ρ c b fun w e => h ⟨w, e⟩

/-! ## The boundary contents, one buffer at a time -/

theorem W1_v1 (c : Dev nD) : W1 m ρ c (Proc.devRef .tc main_v1) = src (argsOf m c) := by
  show StableHlo.after hostOps0 (W0 m ρ c) (Proc.devRef .tc main_v1) = _
  after_results
  rfl
theorem W1_v3 (c : Dev nD) : W1 m ρ c (Proc.devRef .tc main_v3) = dst (argsOf m c) := by
  show StableHlo.after hostOps0 (W0 m ρ c) (Proc.devRef .tc main_v3) = _
  after_results
  rfl
theorem W1_v11 (c : Dev nD) : W1 m ρ c (Proc.devRef .tc main_v11) = dis2 (argsOf m c) := by
  show StableHlo.after hostOps0 (W0 m ρ c) (Proc.devRef .tc main_v11) = _
  after_results
  rfl
theorem W1_v13 (c : Dev nD) : W1 m ρ c (Proc.devRef .tc main_v13) = nm (argsOf m c) := by
  show StableHlo.after hostOps0 (W0 m ρ c) (Proc.devRef .tc main_v13) = _
  after_results
  rfl
theorem W1_v14 (c : Dev nD) : W1 m ρ c (Proc.devRef .tc main_v14) = row128 (argsOf m c).x5 := by
  show StableHlo.after hostOps0 (W0 m ρ c) (Proc.devRef .tc main_v14) = _
  after_results
  rfl
theorem W1_v15 (c : Dev nD) : W1 m ρ c (Proc.devRef .tc main_v15) = row128 (argsOf m c).x6 := by
  show StableHlo.after hostOps0 (W0 m ρ c) (Proc.devRef .tc main_v15) = _
  after_results
  rfl
theorem W1_v16 (c : Dev nD) : W1 m ρ c (Proc.devRef .tc main_v16) = row128 (argsOf m c).x8 := by
  show StableHlo.after hostOps0 (W0 m ρ c) (Proc.devRef .tc main_v16) = _
  after_results
  rfl
theorem W1_v17 (c : Dev nD) : W1 m ρ c (Proc.devRef .tc main_v17) = row128 (argsOf m c).x9 := by
  show StableHlo.after hostOps0 (W0 m ρ c) (Proc.devRef .tc main_v17) = _
  after_results
  rfl
theorem W1_v18 (c : Dev nD) : W1 m ρ c (Proc.devRef .tc main_v18) = row128 (argsOf m c).x11 := by
  show StableHlo.after hostOps0 (W0 m ρ c) (Proc.devRef .tc main_v18) = _
  after_results
  rfl
theorem W1_v19 (c : Dev nD) : W1 m ρ c (Proc.devRef .tc main_v19) = row128 (argsOf m c).x12 := by
  show StableHlo.after hostOps0 (W0 m ρ c) (Proc.devRef .tc main_v19) = _
  after_results
  rfl
theorem W1_v20 (c : Dev nD) : W1 m ρ c (Proc.devRef .tc main_v20) = row1 (argsOf m c).x14 := by
  show StableHlo.after hostOps0 (W0 m ρ c) (Proc.devRef .tc main_v20) = _
  after_results
  rfl
theorem W1_v21 (c : Dev nD) : W1 m ρ c (Proc.devRef .tc main_v21) = bf (argsOf m c).x7 := by
  show StableHlo.after hostOps0 (W0 m ρ c) (Proc.devRef .tc main_v21) = _
  after_results
  rfl
theorem W1_v22 (c : Dev nD) : W1 m ρ c (Proc.devRef .tc main_v22) = bf (argsOf m c).x10 := by
  show StableHlo.after hostOps0 (W0 m ρ c) (Proc.devRef .tc main_v22) = _
  after_results
  rfl
theorem W1_v23 (c : Dev nD) : W1 m ρ c (Proc.devRef .tc main_v23) = bf1 (argsOf m c).x13 := by
  show StableHlo.after hostOps0 (W0 m ρ c) (Proc.devRef .tc main_v23) = _
  after_results
  rfl
theorem W1_arg2 (c : Dev nD) : W1 m ρ c (Proc.devRef .tc main_arg2) = (argsOf m c).x2 :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl
theorem W1_arg4 (c : Dev nD) : W1 m ρ c (Proc.devRef .tc main_arg4) = (argsOf m c).x4 :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl
theorem W2_v1 (c : Dev nD) : W2 m ρ c (Proc.devRef .tc main_v1) = src (argsOf m c) :=
  (W2_other m ρ c main_v1 (by decide)).trans (W1_v1 m ρ c)
theorem W2_v3 (c : Dev nD) : W2 m ρ c (Proc.devRef .tc main_v3) = dst (argsOf m c) :=
  (W2_other m ρ c main_v3 (by decide)).trans (W1_v3 m ρ c)
theorem W2_v11 (c : Dev nD) : W2 m ρ c (Proc.devRef .tc main_v11) = dis2 (argsOf m c) :=
  (W2_other m ρ c main_v11 (by decide)).trans (W1_v11 m ρ c)
theorem W2_v16 (c : Dev nD) : W2 m ρ c (Proc.devRef .tc main_v16) = row128 (argsOf m c).x8 :=
  (W2_other m ρ c main_v16 (by decide)).trans (W1_v16 m ρ c)
theorem W2_v17 (c : Dev nD) : W2 m ρ c (Proc.devRef .tc main_v17) = row128 (argsOf m c).x9 :=
  (W2_other m ρ c main_v17 (by decide)).trans (W1_v17 m ρ c)
theorem W2_v18 (c : Dev nD) : W2 m ρ c (Proc.devRef .tc main_v18) = row128 (argsOf m c).x11 :=
  (W2_other m ρ c main_v18 (by decide)).trans (W1_v18 m ρ c)
theorem W2_v19 (c : Dev nD) : W2 m ρ c (Proc.devRef .tc main_v19) = row128 (argsOf m c).x12 :=
  (W2_other m ρ c main_v19 (by decide)).trans (W1_v19 m ρ c)
theorem W2_v20 (c : Dev nD) : W2 m ρ c (Proc.devRef .tc main_v20) = row1 (argsOf m c).x14 :=
  (W2_other m ρ c main_v20 (by decide)).trans (W1_v20 m ρ c)
theorem W2_v22 (c : Dev nD) : W2 m ρ c (Proc.devRef .tc main_v22) = bf (argsOf m c).x10 :=
  (W2_other m ρ c main_v22 (by decide)).trans (W1_v22 m ρ c)
theorem W2_v23 (c : Dev nD) : W2 m ρ c (Proc.devRef .tc main_v23) = bf1 (argsOf m c).x13 :=
  (W2_other m ρ c main_v23 (by decide)).trans (W1_v23 m ρ c)
theorem W2_v24 (c : Dev nD) : W2 m ρ c (Proc.devRef .tc main_v24) = hs1 (argsOf m c) := by
  refine (W2_arr m ρ c 7).trans ((Region0.final (V1 m ρ) c).trans ?_)
  funext i
  show firstRows (N := 50000) (W1 m ρ c (Proc.devRef .tc main_v13)) (W1 m ρ c (Proc.devRef .tc main_v11)) (W1 m ρ c (Proc.devRef .tc main_arg2)) (W1 m ρ c (Proc.devRef .tc main_arg4)) (W1 m ρ c (Proc.devRef .tc main_v14)) (W1 m ρ c (Proc.devRef .tc main_v15)) (W1 m ρ c (Proc.devRef .tc main_v21)) (i 0) (i 1) = _
  rw [W1_v13 m ρ c, W1_v11 m ρ c, W1_arg2 m ρ c, W1_arg4 m ρ c, W1_v14 m ρ c, W1_v15 m ρ c, W1_v21 m ρ c]
  rfl
theorem W3_v24 (c : Dev nD) : W3 m ρ c (Proc.devRef .tc main_v24) = hs1 (argsOf m c) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v24 m ρ c)
theorem W3_v11 (c : Dev nD) : W3 m ρ c (Proc.devRef .tc main_v11) = dis2 (argsOf m c) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v11 m ρ c)
theorem W3_v16 (c : Dev nD) : W3 m ρ c (Proc.devRef .tc main_v16) = row128 (argsOf m c).x8 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v16 m ρ c)
theorem W3_v17 (c : Dev nD) : W3 m ρ c (Proc.devRef .tc main_v17) = row128 (argsOf m c).x9 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v17 m ρ c)
theorem W3_v22 (c : Dev nD) : W3 m ρ c (Proc.devRef .tc main_v22) = bf (argsOf m c).x10 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v22 m ρ c)
theorem W3_v1 (c : Dev nD) : W3 m ρ c (Proc.devRef .tc main_v1) = src (argsOf m c) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v1 m ρ c)
theorem W3_v3 (c : Dev nD) : W3 m ρ c (Proc.devRef .tc main_v3) = dst (argsOf m c) :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v3 m ρ c)
theorem W3_v18 (c : Dev nD) : W3 m ρ c (Proc.devRef .tc main_v18) = row128 (argsOf m c).x11 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v18 m ρ c)
theorem W3_v19 (c : Dev nD) : W3 m ρ c (Proc.devRef .tc main_v19) = row128 (argsOf m c).x12 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v19 m ρ c)
theorem W3_v20 (c : Dev nD) : W3 m ρ c (Proc.devRef .tc main_v20) = row1 (argsOf m c).x14 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v20 m ρ c)
theorem W3_v23 (c : Dev nD) : W3 m ρ c (Proc.devRef .tc main_v23) = bf1 (argsOf m c).x13 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W2_v23 m ρ c)
theorem W3_v34 (c : Dev nD) : W3 m ρ c (Proc.devRef .tc main_v34) = agg1 (argsOf m c) := by
  show StableHlo.after hostOps1 (W2 m ρ c) (Proc.devRef .tc main_v34) = _
  after_results
  rw [W2_v3 m ρ c, W2_v24 m ρ c, W2_v1 m ρ c]
  rfl
theorem W4_v1 (c : Dev nD) : W4 m ρ c (Proc.devRef .tc main_v1) = src (argsOf m c) :=
  (W4_other m ρ c main_v1 (by decide)).trans (W3_v1 m ρ c)
theorem W4_v3 (c : Dev nD) : W4 m ρ c (Proc.devRef .tc main_v3) = dst (argsOf m c) :=
  (W4_other m ρ c main_v3 (by decide)).trans (W3_v3 m ρ c)
theorem W4_v11 (c : Dev nD) : W4 m ρ c (Proc.devRef .tc main_v11) = dis2 (argsOf m c) :=
  (W4_other m ρ c main_v11 (by decide)).trans (W3_v11 m ρ c)
theorem W4_v18 (c : Dev nD) : W4 m ρ c (Proc.devRef .tc main_v18) = row128 (argsOf m c).x11 :=
  (W4_other m ρ c main_v18 (by decide)).trans (W3_v18 m ρ c)
theorem W4_v19 (c : Dev nD) : W4 m ρ c (Proc.devRef .tc main_v19) = row128 (argsOf m c).x12 :=
  (W4_other m ρ c main_v19 (by decide)).trans (W3_v19 m ρ c)
theorem W4_v20 (c : Dev nD) : W4 m ρ c (Proc.devRef .tc main_v20) = row1 (argsOf m c).x14 :=
  (W4_other m ρ c main_v20 (by decide)).trans (W3_v20 m ρ c)
theorem W4_v23 (c : Dev nD) : W4 m ρ c (Proc.devRef .tc main_v23) = bf1 (argsOf m c).x13 :=
  (W4_other m ρ c main_v23 (by decide)).trans (W3_v23 m ρ c)
theorem W4_v35 (c : Dev nD) : W4 m ρ c (Proc.devRef .tc main_v35) = hs2 (argsOf m c) := by
  refine (W4_arr m ρ c 6).trans ((Region1.final (V3 m ρ) c).trans ?_)
  funext i
  show combineRows (N := 50000) (C := 128) (W3 m ρ c (Proc.devRef .tc main_v34)) (W3 m ρ c (Proc.devRef .tc main_v24)) (W3 m ρ c (Proc.devRef .tc main_v11)) (W3 m ρ c (Proc.devRef .tc main_v16)) (W3 m ρ c (Proc.devRef .tc main_v17)) (W3 m ρ c (Proc.devRef .tc main_v22)) (i 0) (i 1) = _
  rw [W3_v34 m ρ c, W3_v24 m ρ c, W3_v11 m ρ c, W3_v16 m ρ c, W3_v17 m ρ c, W3_v22 m ρ c]
  rfl
theorem W5_v35 (c : Dev nD) : W5 m ρ c (Proc.devRef .tc main_v35) = hs2 (argsOf m c) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v35 m ρ c)
theorem W5_v11 (c : Dev nD) : W5 m ρ c (Proc.devRef .tc main_v11) = dis2 (argsOf m c) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v11 m ρ c)
theorem W5_v18 (c : Dev nD) : W5 m ρ c (Proc.devRef .tc main_v18) = row128 (argsOf m c).x11 :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v18 m ρ c)
theorem W5_v19 (c : Dev nD) : W5 m ρ c (Proc.devRef .tc main_v19) = row128 (argsOf m c).x12 :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v19 m ρ c)
theorem W5_v23 (c : Dev nD) : W5 m ρ c (Proc.devRef .tc main_v23) = bf1 (argsOf m c).x13 :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v23 m ρ c)
theorem W5_v1 (c : Dev nD) : W5 m ρ c (Proc.devRef .tc main_v1) = src (argsOf m c) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v1 m ρ c)
theorem W5_v3 (c : Dev nD) : W5 m ρ c (Proc.devRef .tc main_v3) = dst (argsOf m c) :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v3 m ρ c)
theorem W5_v20 (c : Dev nD) : W5 m ρ c (Proc.devRef .tc main_v20) = row1 (argsOf m c).x14 :=
  (StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_v20 m ρ c)
theorem W5_v45 (c : Dev nD) : W5 m ρ c (Proc.devRef .tc main_v45) = agg2 (argsOf m c) := by
  show StableHlo.after hostOps2 (W4 m ρ c) (Proc.devRef .tc main_v45) = _
  after_results
  rw [W4_v3 m ρ c, W4_v35 m ρ c, W4_v1 m ρ c]
  rfl
theorem W6_v1 (c : Dev nD) : W6 m ρ c (Proc.devRef .tc main_v1) = src (argsOf m c) :=
  (W6_other m ρ c main_v1 (by decide)).trans (W5_v1 m ρ c)
theorem W6_v3 (c : Dev nD) : W6 m ρ c (Proc.devRef .tc main_v3) = dst (argsOf m c) :=
  (W6_other m ρ c main_v3 (by decide)).trans (W5_v3 m ρ c)
theorem W6_v11 (c : Dev nD) : W6 m ρ c (Proc.devRef .tc main_v11) = dis2 (argsOf m c) :=
  (W6_other m ρ c main_v11 (by decide)).trans (W5_v11 m ρ c)
theorem W6_v20 (c : Dev nD) : W6 m ρ c (Proc.devRef .tc main_v20) = row1 (argsOf m c).x14 :=
  (W6_other m ρ c main_v20 (by decide)).trans (W5_v20 m ρ c)
theorem W6_v46 (c : Dev nD) : W6 m ρ c (Proc.devRef .tc main_v46) = hs3 (argsOf m c) := by
  refine (W6_arr m ρ c 6).trans ((Region2.final (V5 m ρ) c).trans ?_)
  funext i
  show combineRows (N := 50000) (C := 1) (W5 m ρ c (Proc.devRef .tc main_v45)) (W5 m ρ c (Proc.devRef .tc main_v35)) (W5 m ρ c (Proc.devRef .tc main_v11)) (W5 m ρ c (Proc.devRef .tc main_v18)) (W5 m ρ c (Proc.devRef .tc main_v19)) (W5 m ρ c (Proc.devRef .tc main_v23)) (i 0) (i 1) = _
  rw [W5_v45 m ρ c, W5_v35 m ρ c, W5_v11 m ρ c, W5_v18 m ρ c, W5_v19 m ρ c, W5_v23 m ρ c]
  rfl
theorem W7_v46 (c : Dev nD) : W7 m ρ c (Proc.devRef .tc main_v46) = hs3 (argsOf m c) :=
  (StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W6_v46 m ρ c)
theorem W7_v11 (c : Dev nD) : W7 m ρ c (Proc.devRef .tc main_v11) = dis2 (argsOf m c) :=
  (StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W6_v11 m ρ c)
theorem W7_v20 (c : Dev nD) : W7 m ρ c (Proc.devRef .tc main_v20) = row1 (argsOf m c).x14 :=
  (StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W6_v20 m ρ c)
theorem W7_v56 (c : Dev nD) : W7 m ρ c (Proc.devRef .tc main_v56) = agg3 (argsOf m c) := by
  show StableHlo.after hostOps3 (W6 m ρ c) (Proc.devRef .tc main_v56) = _
  after_results
  rw [W6_v3 m ρ c, W6_v46 m ρ c, W6_v1 m ρ c]
  rfl
theorem W8_v57 (c : Dev nD) : W8 m ρ c (Proc.devRef .tc main_v57) = h3 (argsOf m c) := by
  refine (W8_arr m ρ c 4).trans ((Region3.final (V7 m ρ) c).trans ?_)
  funext i
  show finalRows (N := 50000) (W7 m ρ c (Proc.devRef .tc main_v56)) (W7 m ρ c (Proc.devRef .tc main_v46)) (W7 m ρ c (Proc.devRef .tc main_v11)) (W7 m ρ c (Proc.devRef .tc main_v20)) (i 0) = _
  rw [W7_v56 m ρ c, W7_v46 m ρ c, W7_v11 m ρ c, W7_v20 m ρ c]
  rfl
theorem W9_v58 (c : Dev nD) : W9 m ρ c (Proc.devRef .tc main_v58) = outK (argsOf m c) := by
  show StableHlo.after hostOps4 (W8 m ρ c) (Proc.devRef .tc main_v58) = _
  after_results
  rw [W8_v57 m ρ c]
  rfl

/-- THE RESULT: the last boundary's contents at the result's buffer are `outK` of the arguments. -/
theorem result_eq (c : Dev nD) : W9 m ρ c (Proc.devRef .tc main_v58) = outK (argsOf m c) := W9_v58 m ρ c

end Cert.KernelIdeal.KValue

end
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.LibScatterVec.lean ====
/-
  THE ACCUMULATING SCATTER INTO A VECTOR READ AT AN INDEX, at the ideal instance (floats are extended reals).

  A scatter into a vector adds element `e` of an `[E]` array of updates into element `idx[e, 0]` of an `[N]` operand:
  `"stablehlo.scatter"` with an `add` body and dimension numbers update_window_dims = [], inserted_window_dims = [0],
  scatter_dims_to_operand_dims = [0], index_vector_dim = 1, over scatter indices of shape `[E, 1]` (what a segment sum
  of a vector lowers to; with updates all one it counts, per segment, the indices that name it). The scatter index is
  read SIGNED and is NOT clamped: an update whose index is outside `[0, N)` is dropped. At the ideal instance element
  `n` of the result is

      x[n] + ∑ e : Fin E, if idx[e, 0] = n then upd[e] else 0

  (`scatterAdd_vec_apply`) — the landing condition is the one of a row scatter through the same indices.
-/
import Idealize.ShloMosaic.PureOps.Ideal
import Idealize.ShloMosaic.PureOps.Contract
import Idealize.ShloMosaic.Lib.ValueIdx

noncomputable section

open scoped BigOperators

namespace Idealize.ShloMosaic.ScatterVec

open Idealize.ShloMosaic Idealize.ShloMosaic.ValueIdx

/-- The dimension numbers of a scatter of `[E]` updates into an `[N]` operand through `[E, 1]` scatter indices. -/
abbrev vecDims (N E : Nat)
    (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat}
  (wf : ScatterDims.WF (⟨1, ![N]⟩ : Shape) ⟨2, ![E, 1]⟩ ⟨1, ![E]⟩ [] [0] [0] 1)

/-- The window starts at the update's scatter index, read signed. -/
theorem start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The window coordinate is `0`: the operand's one axis is inserted. -/
theorem window_zero (j : (⟨1, ![E]⟩ : Shape).Idx) :
    (vecDims N E wf).window j 0 = 0 := by
  unfold ScatterDims.window
  have h : ¬ (0 : Fin 1) ∈ (List.finRange 1).filter (fun a => a ∉ ([0] : List (Fin 1))) := by decide
  rw [dif_neg (show ¬ (0 : Fin 1) ∈ (vecDims N E wf).sKept from h)]

/-- An update lands at operand element `n` exactly when its scatter index, read signed, is `n`. -/
theorem resultIdx?_eq_some_iff (j : (⟨1, ![E]⟩ : Shape).Idx) (idx : IVec ⟨2, ![E, 1]⟩ w) (n : Fin N) :
    (vecDims N E wf).resultIdx? j idx = some (ix1 n) ↔ (idx (ix2 (j 0) (0 : Fin 1))).toInt = (n.val : Int) := by
  have hs0 := start_zero wf j idx
  have hw0 := window_zero wf j
  have hn : n.val < N := n.isLt
  unfold ScatterDims.resultIdx?
  split_ifs with h
  · rw [Option.some.injEq]
    constructor
    · intro hf
      have h0 := congrArg (fun f => (f 0).val) hf
      have b0 := (h 0).1
      simp only [hs0, hw0] at h0 b0
      change ((idx (ix2 (j 0) (0 : Fin 1))).toInt + ((0 : Nat) : Int)).toNat = n.val at h0
      omega
    · intro ht
      funext a
      refine Fin.ext ?_
      match a with
      | ⟨0, _⟩ =>
        show ((vecDims N E wf).start j idx 0 + ((vecDims N E wf).window j 0 : Int)).toNat = n.val
        rw [hs0, hw0, ht]; omega
  · constructor
    · intro hf; exact absurd hf (by simp)
    · intro ht
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, hw0, ht]; omega

end

/-- THE SCATTER INTO A VECTOR READ AT `n`, at the ideal instance: the operand's element plus the sum, over ALL `E`
    updates, of the update when its scatter index (read signed) is `n`, and `0` when it is not. -/
theorem scatterAdd_vec_apply {N E w : Nat}
    (wf : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32)
        (⟨[], [0], [0], 1, wf⟩ : ScatterDims ⟨1, ![N]⟩ ⟨2, ![E, 1]⟩ ⟨1, ![E]⟩) x idx upd (ix1 n)
      = x (ix1 n) + ∑ e : Fin E,
          if (idx (ix2 e (0 : Fin 1))).toInt = (n.val : Int) then upd (ix1 e) else 0 := by
  show Ideal.hostScatterAdd (vecDims N E wf) x idx upd (ix1 n) = _
  unfold Ideal.hostScatterAdd
  congr 1
  rw [Finset.sum_filter]
  have hre : ∀ f : (⟨1, ![E]⟩ : Shape).Idx → EReal, ∑ j, f j = ∑ e : Fin E, f (ix1 e) := fun f =>
    (Equiv.sum_comp (⟨fun e : Fin E => (ix1 e : (⟨1, ![E]⟩ : Shape).Idx), fun j => j 0,
      fun e => rfl, fun j => (eq_ix1 j).symm⟩ : Fin E ≃ (⟨1, ![E]⟩ : Shape).Idx) f).symm
  rw [hre]
  refine Finset.sum_congr rfl fun e _ => ?_
  exact if_congr (resultIdx?_eq_some_iff wf (ix1 e) idx n) rfl rfl

/-- The same for ANY dimension numbers between these shapes whose four lists are this scatter's. -/
theorem scatterAdd_vec_apply' {N E w : Nat}
    (d : ScatterDims (⟨1, ![N]⟩ : Shape) ⟨2, ![E, 1]⟩ ⟨1, ![E]⟩)
    (h1 : d.updateWindowDims = []) (h2 : d.insertedWindowDims = [0])
    (h3 : d.scatterDimsToOperandDims = [0]) (h4 : d.indexVectorDim = 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) d x idx upd (ix1 n)
      = x (ix1 n) + ∑ e : Fin E,
          if (idx (ix2 e (0 : Fin 1))).toInt = (n.val : Int) then upd (ix1 e) else 0 := by
  obtain ⟨uw, iw, sd, iv, wf⟩ := d
  simp only at h1 h2 h3 h4
  subst h1 h2 h3 h4
  exact scatterAdd_vec_apply wf x idx upd n

end Idealize.ShloMosaic.ScatterVec

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.LibGatherVec.lean ====
/-
  THE VECTOR GATHER READ AT AN INDEX.

  A vector gather takes, for each of `E` start indices, one element of an `[N]` operand: `"stablehlo.gather"` with
  offset_dims = [], collapsed_slice_dims = [0], start_index_map = [0], index_vector_dim = 1 and slice sizes [1], over
  start indices of shape `[E, 1]` (what indexing a vector by an integer vector lowers to). Element `e` of the result
  is the operand at `idx[e, 0]` — read SIGNED and CLAMPED into `[0, N − 1]` (`gather_vec_apply`): the same clamp as a
  row gather's through the same start indices (`GatherRows.clampRow`). The extents and the index width are arbitrary.
-/
import Idealize.ShloMosaic.PureOps.ShapeOps
import Idealize.ShloMosaic.Lib.ValueIdx
import proofs.«181795_j20581483283116_2_alg».proof.Proof.LibGatherRows

namespace Idealize.ShloMosaic.GatherVec

open Idealize.ShloMosaic Idealize.ShloMosaic.ValueIdx

variable {α : Type}

/-- The dimension numbers of a gather from an `[N]` operand through `[E, 1]` start indices. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped start index `e`. -/
theorem gather_vec_apply {N E w : Nat} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.clampRow N hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The same for ANY dimension numbers between these shapes whose fields are a vector gather's (for a record stated field
    by field, each hypothesis is `rfl`). -/
theorem gather_vec_apply' {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (GatherRows.clampRow N hN (idx (ix2 e (0 : Fin 1))))) := by
  obtain ⟨od, cd, ob, sb, sm, iv, ss, wf⟩ := d
  simp only at h1 h2 h3 h4 h5 h6 h7
  subst h1 h2 h3 h4 h5 h6 h7
  exact gather_vec_apply hN wf x idx e

end Idealize.ShloMosaic.GatherVec
-- ==== Proof.LibBroadcastReads.lean ====
/-
  `broadcast_in_dim` between vectors, one-row, one-column and full matrices, read at an index given by coordinates.

  * a vector `[a]` placed down the rows of a one-column matrix `[a, 1]` (dims = [0]) reads, at `(i, u)`, the vector at `i`;
  * a vector `[b]` placed along the one row of `[1, b]` (dims = [1]) reads, at `(u, j)`, the vector at `j`;
  * a one-column matrix `[a, 1]` repeated along the columns of `[a, b]` (dims = [0, 1]) reads, at `(i, j)`, the column at `i`;
  * a one-row matrix `[1, b]` repeated down the rows of `[a, b]` (dims = [0, 1]) reads, at `(i, j)`, the row at `j`.

  Each is the general read of the operation (the operand at the result's coordinates on the axes the map names, `0` on the
  operand's unit axes) at these shapes, for any extents.
-/
import Idealize.ShloMosaic.Lib.ValueIdx
import Idealize.ShloMosaic.Lib.Pipeline.Value

namespace Idealize.ShloMosaic.BroadcastReads

open Idealize.ShloMosaic Idealize.ShloMosaic.ValueIdx

variable {α : Type}

/-- `[a] → [a, 1]` along axis 0: at `(i, u)` the vector at `i`. -/
theorem vec_to_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- `[b] → [1, b]` along axis 1: at `(u, j)` the vector at `j`. -/
theorem vec_to_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- `[a, 1] → [a, b]` in place: at `(i, j)` the column at `i`. -/
theorem col_to_mat_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply ![0, 1] h x (ix2 i j) (ix2 i (0 : Fin 1)) fun ax => ?_
  match ax with
  | ⟨0, _⟩ =>
    show i.val = if a = 1 then 0 else i.val
    split
    · have := i.isLt; omega
    · rfl
  | ⟨1, _⟩ => rfl

/-- `[1, b] → [a, b]` in place: at `(i, j)` the row at `j`. -/
theorem row_to_mat_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

end Idealize.ShloMosaic.BroadcastReads
-- ==== Proof.Edges.lean ====
/-
  The graph bookkeeping read at an index.

  Edge `e` LANDS at node `n` when its destination, read signed, is `n`: the accumulating scatter adds edge `e`'s row into
  row `n` exactly then (an out-of-range destination lands nowhere). Its SOURCE ROW is its source index wrapped (a
  negative one moved up by the node count) and clamped into the node range: the row a gather reads. Its DESTINATION ROW
  is its destination wrapped and clamped in the same way; an edge that lands at `n` has destination row `n`, because a
  destination that is a node number is neither negative nor past the end.
  The aggregate of rows `hs` at `(n, k)` is then `0 + ∑ e, if e lands at n then hs (source row of e, k) else 0`, and the
  node scale `d n = (1 + number of edges landing at n)^(-1/2)` is a nonnegative real.
-/
import proofs.«181795_j20581483283116_2_alg».proof.Proof.KernelValue
import proofs.«181795_j20581483283116_2_alg».proof.Proof.LibScatterRows
import proofs.«181795_j20581483283116_2_alg».proof.Proof.LibScatterVec
import proofs.«181795_j20581483283116_2_alg».proof.Proof.LibGatherRows
import proofs.«181795_j20581483283116_2_alg».proof.Proof.LibGatherVec
import proofs.«181795_j20581483283116_2_alg».proof.Proof.LibBroadcastReads

set_option maxRecDepth 16384

noncomputable section

open scoped BigOperators

namespace Cert.KernelIdeal.KValue

open Cert.KernelIdeal Cert.KernelIdeal.Gen Idealize.ShloMosaic Idealize.ShloMosaic.ValueIdx GcnLaw

/-- Edge `e` lands at node `n`. -/
def lands (a : Args) (e : Fin 800000) (n : Fin 50000) : Prop := (dstIdx a (ix2 e (0 : Fin 1))).toInt = (n.val : Int)

instance (a : Args) (e : Fin 800000) (n : Fin 50000) : Decidable (lands a e n) :=
  inferInstanceAs (Decidable ((dstIdx a (ix2 e (0 : Fin 1))).toInt = (n.val : Int)))

/-- The row a gather through the source indices reads for edge `e`. -/
def sRow (a : Args) (e : Fin 800000) : Fin 50000 := GatherRows.clampRow 50000 (by decide) (srcIdx a (ix2 e (0 : Fin 1)))

/-- The destinations as a column of gather indices, a negative one wrapped around by the node count first. -/
def dstWrapIdx (a : Args) : Cn S800000x1 .i32 :=
  broadcastInDim S800000x1 ![0] bcast_S800000_S800000x1_0
    (select (cmpi .slt (dst a) (broadcastInDim S800000 ![] bcast_S_S800000 (constantI S_ 32 0#32)))
      (addi (dst a) (broadcastInDim S800000 ![] bcast_S_S800000 (constantI S_ 32 50000#32))) (dst a))

/-- The row a gather through the wrapped destination indices reads for edge `e`. -/
def tRow (a : Args) (e : Fin 800000) : Fin 50000 := GatherRows.clampRow 50000 (by decide) (dstWrapIdx a (ix2 e (0 : Fin 1)))

/-- The node scale at node `n`. -/
def d (a : Args) (n : Fin 50000) : EReal := dis a (ix1 n)

theorem dis2_apply (a : Args) (n : Fin 50000) (u : Fin 1) : dis2 a (ix2 n u) = d a n :=
  BroadcastReads.vec_to_col_apply _ _ n u

theorem row128_apply (x : Cn S128 .f32) (u : Fin 1) (k : Fin 128) : row128 x (ix2 u k) = x (ix1 k) :=
  BroadcastReads.vec_to_row_apply _ _ u k

theorem row1_apply (x : Cn S1 .f32) (u v : Fin 1) : row1 x (ix2 u v) = x (ix1 v) :=
  BroadcastReads.vec_to_row_apply _ _ u v

/-- A wrapped index that was a node number is that node number: it is not negative. -/
theorem wrap_of_nonneg (x : BitVec 32) (h : 0 ≤ x.toInt) :
    Scalar.select (IntOp.cmpi .slt x 0#32) (IntOp.addi x 50000#32) x = x := by
  have hs : x.slt 0#32 = false := by
    simp only [BitVec.slt, BitVec.toInt_zero, decide_eq_false_iff_not, not_lt]
    exact h
  show Scalar.select (BitVec.ofBool (x.slt 0#32)) _ _ = _
  rw [hs]
  exact select_zero _ _

/-- An edge that lands at `n` has destination row `n`. -/
theorem tRow_of_lands (a : Args) (e : Fin 800000) (n : Fin 50000) (h : lands a e n) : tRow a e = n := by
  have hd : dstIdx a (ix2 e (0 : Fin 1)) = dst a (ix1 e) := BroadcastReads.vec_to_col_apply _ _ e 0
  have h' : (dst a (ix1 e)).toInt = (n.val : Int) := by rw [← hd]; exact h
  have hw : dstWrapIdx a (ix2 e (0 : Fin 1)) = dst a (ix1 e) := by
    refine (BroadcastReads.vec_to_col_apply _ _ e 0).trans ?_
    exact wrap_of_nonneg _ (by rw [h']; exact Int.natCast_nonneg _)
  unfold tRow
  rw [hw]
  exact GatherRows.clampRow_of_toInt_eq _ _ n h'

/-- The aggregate of 128-column rows at `(n, k)`. -/
theorem aggRows_apply (a : Args) (hs : Cn S50000x128 .f32) (n : Fin 50000) (k : Fin 128) :
    aggRows a hs (ix2 n k)
      = Ideal.ofBits .f32 0x00000000#32 + ∑ e : Fin 800000, if lands a e n then hs (ix2 (sRow a e) k) else 0 := by
  unfold aggRows
  refine Eq.trans (ScatterRows.scatterAdd_rows_apply' scatter_S50000x128_S800000x1_S800000x128_1_0_0_1 rfl rfl rfl rfl _ _ _ n k) ?_
  refine congrArg₂ (· + ·) rfl (Finset.sum_congr rfl fun e _ => ?_)
  exact if_congr Iff.rfl
    (GatherRows.gather_rows_apply' (by decide) gather_S50000x128_S800000x1_S800000x128_1_0_n_n_0_1_1128 rfl rfl rfl rfl rfl rfl rfl hs (srcIdx a) e k) rfl

/-- The aggregate of a one-column array at `(n, u)`. -/
theorem aggCol_apply (a : Args) (hs : Cn S50000x1 .f32) (n : Fin 50000) (u : Fin 1) :
    aggCol a hs (ix2 n u)
      = Ideal.ofBits .f32 0x00000000#32 + ∑ e : Fin 800000, if lands a e n then hs (ix2 (sRow a e) u) else 0 := by
  unfold aggCol
  refine Eq.trans (ScatterRows.scatterAdd_rows_apply' scatter_S50000x1_S800000x1_S800000x1_1_0_0_1 rfl rfl rfl rfl _ _ _ n u) ?_
  refine congrArg₂ (· + ·) rfl (Finset.sum_congr rfl fun e _ => ?_)
  exact if_congr Iff.rfl
    (GatherRows.gather_rows_apply' (by decide) gather_S50000x1_S800000x1_S800000x1_1_0_n_n_0_1_11 rfl rfl rfl rfl rfl rfl rfl hs (srcIdx a) e u) rfl

/-- The host's reciprocal square root of an array, read at an index. -/
theorem hostRsqrt_apply {s : Shape} (v : FVec Ideal s .f32) (i : s.Idx) :
    Host.rsqrt (F := Ideal) v i = Ideal.rsqrt (v i) := rfl

/-- The node scale is the reciprocal square root of one plus the number of edges landing at the node. -/
theorem d_eq (a : Args) (n : Fin 50000) :
    d a n = Ideal.rsqrt ((Ideal.ofBits .f32 0x00000000#32
        + ∑ e : Fin 800000, (if lands a e n then Ideal.ofBits .f32 0x3F800000#32 else 0)) + Ideal.ofBits .f32 0x3F800000#32) := by
  unfold d dis
  rw [hostRsqrt_apply, addf_apply,
    ScatterVec.scatterAdd_vec_apply' scatter_S50000_S800000x1_S800000_n_0_0_1 rfl rfl rfl rfl]
  exact congrArg Ideal.rsqrt (congrArg₂ (· + ·)
    (congrArg₂ (· + ·) rfl (Finset.sum_congr rfl fun e _ => if_congr Iff.rfl rfl rfl)) rfl)

/-- The node scale is a nonnegative extended real other than `⊤`. -/
theorem d_ok (a : Args) (n : Fin 50000) : 0 ≤ d a n ∧ d a n ≠ ⊤ := by
  rw [d_eq]
  exact GcnLaw.scale_ok _

end Cert.KernelIdeal.KValue

end
-- ==== Proof.RefValue.lean ====
/-
  The reference program, one layer at a time, read at an index.

  The reference computes, per layer, from the transformed features `ht = h @ W`:

      (0 + ∑ e landing at n, (d (source row of e) * d (destination row of e)) * ht (source row of e, k))
        + (d n * d n) * ht (n, k) + b k

  — a gather of the transformed rows at the edges' sources, each scaled by the edge's weight, added into the destinations,
  plus the self term and the bias — then a PReLU and the next linear map. Each of these array operations is named once
  here (the per-edge weight, the self-term column, a layer into 128 columns, a layer into one column, the PReLU of rows, the
  two linear maps) and read at a row and a column; the reference's result is their composition, which is what the generated
  reading of the program says stage by stage.
-/
import proofs.«181795_j20581483283116_2_alg».proof.Proof.Gen.ReferenceIdeal.Read
import proofs.«181795_j20581483283116_2_alg».proof.Proof.Edges
import proofs.«181795_j20581483283116_2_alg».proof.Proof.LibRowOps
import proofs.«181795_j20581483283116_2_alg».proof.Proof.LibColumns

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx GcnLaw
open Cert.KernelIdeal.KValue

/-- An edge's weight: the node scale at its source row times the node scale at its destination row. -/
def normE (a : Args) : Cn S800000 .f32 :=
  mulf (F := Ideal) (φ := .f32) (Host.gather gather_S50000_S800000x1_S800000_n_0_n_n_0_1_1 (dis a) (srcIdx a))
    (Host.gather gather_S50000_S800000x1_S800000_n_0_n_n_0_1_1 (dis a) (dstWrapIdx a))

/-- The self term's factor, a column: the node scale squared. -/
def selfCol (a : Args) : Cn S50000x1 .f32 := broadcastInDim S50000x1 ![0] bcast_S50000_S50000x1_0 (mulf (F := Ideal) (φ := .f32) (dis a) (dis a))

/-- One layer into 128 columns, in the reference's arrangement. -/
def layer128 (a : Args) (ht : Cn S50000x128 .f32) (b : Cn S128 .f32) : Cn S50000x128 .f32 :=
  addf (F := Ideal) (φ := .f32) (addf (F := Ideal) (φ := .f32)
      (Host.scatterAdd (F := Ideal) scatter_S50000x128_S800000x1_S800000x128_1_0_0_1
        (broadcastInDim S50000x128 ![] bcast_S_S50000x128 (constant (F := Ideal) S_ .f32 0x00000000#32)) (dstIdx a)
        (mulf (F := Ideal) (φ := .f32) (broadcastInDim S800000x128 ![0, 1] bcast_S800000x1_S800000x128_0_1
            (broadcastInDim S800000x1 ![0] bcast_S800000_S800000x1_0 (normE a)))
          (Host.gather gather_S50000x128_S800000x1_S800000x128_1_0_n_n_0_1_1128 ht (srcIdx a))))
      (mulf (F := Ideal) (φ := .f32) (broadcastInDim S50000x128 ![0, 1] bcast_S50000x1_S50000x128_0_1 (selfCol a)) ht))
    (broadcastInDim S50000x128 ![0, 1] bcast_S1x128_S50000x128_0_1 (broadcastInDim S1x128 ![1] bcast_S128_S1x128_1 b))

/-- One layer into one column, in the reference's arrangement. -/
def layer1 (a : Args) (ht : Cn S50000x1 .f32) (b : Cn S1 .f32) : Cn S50000x1 .f32 :=
  addf (F := Ideal) (φ := .f32) (addf (F := Ideal) (φ := .f32)
      (Host.scatterAdd (F := Ideal) scatter_S50000x1_S800000x1_S800000x1_1_0_0_1
        (broadcastInDim S50000x1 ![] bcast_S_S50000x1 (constant (F := Ideal) S_ .f32 0x00000000#32)) (dstIdx a)
        (mulf (F := Ideal) (φ := .f32) (broadcastInDim S800000x1 ![0] bcast_S800000_S800000x1_0 (normE a))
          (Host.gather gather_S50000x1_S800000x1_S800000x1_1_0_n_n_0_1_11 ht (srcIdx a))))
      (mulf (F := Ideal) (φ := .f32) (selfCol a) ht))
    (broadcastInDim S50000x1 ![0, 1] bcast_S1x1_S50000x1_0_1 (broadcastInDim S1x1 ![1] bcast_S1_S1x1_1 b))

/-- PReLU of an array of rows, with one slope per column. -/
def preluRows (L : Cn S50000x128 .f32) (sl : Cn S128 .f32) : Cn S50000x128 .f32 :=
  select (cmpf (F := Ideal) (φ := .f32) .oge L (broadcastInDim S50000x128 ![] bcast_S_S50000x128 (constant (F := Ideal) S_ .f32 0x00000000#32))) L
    (mulf (F := Ideal) (φ := .f32) (broadcastInDim S50000x128 ![0, 1] bcast_S1x128_S50000x128_0_1 (broadcastInDim S1x128 ![1] bcast_S128_S1x128_1 sl)) L)

/-- The linear maps. -/
def lin128 (h : Cn S50000x128 .f32) (w : Cn S128x128 .f32) : Cn S50000x128 .f32 :=
  Host.dotGeneral (F := Ideal) (φ₁ := .f32) (φ₂ := .f32) dot_S50000x128_S128x128_S50000x128_1_0_0_1_n_n none h w
def lin1 (h : Cn S50000x128 .f32) (w : Cn S128x1 .f32) : Cn S50000x1 .f32 :=
  Host.dotGeneral (F := Ideal) (φ₁ := .f32) (φ₂ := .f32) dot_S50000x128_S128x1_S50000x1_1_0_0_1_n_n none h w

/-- The node features after the input projection: its PReLU plus the raw features. -/
def h0R (a : Args) : Cn S50000x128 .f32 :=
  addf (F := Ideal) (φ := .f32) (preluRows
      (addf (F := Ideal) (φ := .f32) (Host.dotGeneral (F := Ideal) (φ₁ := .f32) (φ₂ := .f32) dot_S50000x1_S1x128_S50000x128_1_0_0_1_n_n none (nm a) a.x4)
        (broadcastInDim S50000x128 ![0, 1] bcast_S1x128_S50000x128_0_1 (broadcastInDim S1x128 ![1] bcast_S128_S1x128_1 a.x5)))
      a.x6) a.x2

def ht1 (a : Args) : Cn S50000x128 .f32 := lin128 (h0R a) a.x7
def ht2 (a : Args) : Cn S50000x128 .f32 := lin128 (preluRows (layer128 a (ht1 a) a.x8) a.x9) a.x10
def ht3 (a : Args) : Cn S50000x1 .f32 := lin1 (preluRows (layer128 a (ht2 a) a.x11) a.x12) a.x13
/-- THE REFERENCE'S RESULT. -/
def outR (a : Args) : Cn S50000 .f32 := shapeCast _ (layer1 a (ht3 a) a.x14) shapeCasts_S50000x1_S50000

/-! ## Reads at an index

Below, nothing is ever computed: every step is a rewrite by a lemma. The node scales, the scatter's sum and the
reciprocal square root are kept folded, so that no comparison of two terms can start evaluating a sum over the edges. -/

attribute [local irreducible] Cert.KernelIdeal.KValue.dis Ideal.rsqrt Ideal.hostScatterAdd Finset.sum Ideal.ofBits
set_option maxHeartbeats 100000

theorem normE_apply (a : Args) (e : Fin 800000) : normE a (ix1 e) = d a (sRow a e) * d a (tRow a e) := by
  have h1 : Host.gather gather_S50000_S800000x1_S800000_n_0_n_n_0_1_1 (dis a) (srcIdx a) (ix1 e) = d a (sRow a e) :=
    GatherVec.gather_vec_apply' (by decide) gather_S50000_S800000x1_S800000_n_0_n_n_0_1_1 rfl rfl rfl rfl rfl rfl rfl (dis a) (srcIdx a) e
  have h2 : Host.gather gather_S50000_S800000x1_S800000_n_0_n_n_0_1_1 (dis a) (dstWrapIdx a) (ix1 e) = d a (tRow a e) :=
    GatherVec.gather_vec_apply' (by decide) gather_S50000_S800000x1_S800000_n_0_n_n_0_1_1 rfl rfl rfl rfl rfl rfl rfl (dis a) (dstWrapIdx a) e
  unfold normE
  rw [mulf_apply, h1, h2]

theorem dis_apply (a : Args) (n : Fin 50000) : dis a (ix1 n) = d a n := rfl

theorem selfCol_apply (a : Args) (n : Fin 50000) (u : Fin 1) : selfCol a (ix2 n u) = d a n * d a n := by
  unfold selfCol
  rw [BroadcastReads.vec_to_col_apply, mulf_apply, dis_apply]

theorem preluRows_apply (L : Cn S50000x128 .f32) (sl : Cn S128 .f32) (n : Fin 50000) (k : Fin 128) :
    preluRows L sl (ix2 n k) = prelu (L (ix2 n k)) (sl (ix1 k)) := by
  have hb : broadcastInDim S50000x128 ![0, 1] bcast_S1x128_S50000x128_0_1 (broadcastInDim S1x128 ![1] bcast_S128_S1x128_1 sl) (ix2 n k)
      = sl (ix1 k) := (BroadcastReads.row_to_mat_apply _ _ n k).trans (BroadcastReads.vec_to_row_apply _ _ 0 k)
  show Scalar.select (FloatOps.cmpf .oge (L (ix2 n k)) (Ideal.ofBits .f32 0x00000000#32)) (L (ix2 n k))
      (broadcastInDim S50000x128 ![0, 1] bcast_S1x128_S50000x128_0_1 (broadcastInDim S1x128 ![1] bcast_S128_S1x128_1 sl) (ix2 n k) * L (ix2 n k)) = _
  rw [hb]
  rfl

theorem lin128_apply (h : Cn S50000x128 .f32) (w : Cn S128x128 .f32) (n : Fin 50000) (q : Fin 128) :
    lin128 h w (ix2 n q) = ∑ k : Fin 128, h (ix2 n k) * w (ix2 k q) := by
  unfold lin128
  simp only [Host.dotGeneral]
  exact RowOps.dotGeneral_plain_apply _ ⟨_, rfl⟩ _ _ _ _ n q

theorem lin1_apply (h : Cn S50000x128 .f32) (w : Cn S128x1 .f32) (n : Fin 50000) (q : Fin 1) :
    lin1 h w (ix2 n q) = ∑ k : Fin 128, h (ix2 n k) * w (ix2 k q) := by
  unfold lin1
  simp only [Host.dotGeneral]
  exact RowOps.dotGeneral_plain_apply _ ⟨_, rfl⟩ _ _ _ _ n q

/-- A layer into 128 columns at `(n, k)`. -/
theorem layer128_apply (a : Args) (ht : Cn S50000x128 .f32) (b : Cn S128 .f32) (n : Fin 50000) (k : Fin 128) :
    layer128 a ht b (ix2 n k)
      = ((Ideal.ofBits .f32 0x00000000#32
            + ∑ e : Fin 800000, if lands a e n then (d a (sRow a e) * d a (tRow a e)) * ht (ix2 (sRow a e) k) else 0)
          + (d a n * d a n) * ht (ix2 n k)) + b (ix1 k) := by
  have hw : ∀ e : Fin 800000, broadcastInDim S800000x128 ![0, 1] bcast_S800000x1_S800000x128_0_1
      (broadcastInDim S800000x1 ![0] bcast_S800000_S800000x1_0 (normE a)) (ix2 e k) = d a (sRow a e) * d a (tRow a e) :=
    fun e => (BroadcastReads.col_to_mat_apply _ _ e k).trans ((BroadcastReads.vec_to_col_apply _ _ e 0).trans (normE_apply a e))
  have hg : ∀ e : Fin 800000, Host.gather gather_S50000x128_S800000x1_S800000x128_1_0_n_n_0_1_1128 ht (srcIdx a) (ix2 e k)
      = ht (ix2 (sRow a e) k) := fun e =>
    GatherRows.gather_rows_apply' (by decide) gather_S50000x128_S800000x1_S800000x128_1_0_n_n_0_1_1128 rfl rfl rfl rfl rfl rfl rfl ht (srcIdx a) e k
  have hs : broadcastInDim S50000x128 ![0, 1] bcast_S50000x1_S50000x128_0_1 (selfCol a) (ix2 n k) = d a n * d a n :=
    (BroadcastReads.col_to_mat_apply _ _ n k).trans (selfCol_apply a n 0)
  have hb : broadcastInDim S50000x128 ![0, 1] bcast_S1x128_S50000x128_0_1 (broadcastInDim S1x128 ![1] bcast_S128_S1x128_1 b) (ix2 n k)
      = b (ix1 k) := (BroadcastReads.row_to_mat_apply _ _ n k).trans (BroadcastReads.vec_to_row_apply _ _ 0 k)
  have hz : broadcastInDim S50000x128 ![] bcast_S_S50000x128 (constant (F := Ideal) S_ .f32 0x00000000#32) (ix2 n k)
      = Ideal.ofBits .f32 0x00000000#32 := rfl
  unfold layer128
  rw [addf_apply, addf_apply, mulf_apply, hs, hb,
    ScatterRows.scatterAdd_rows_apply' scatter_S50000x128_S800000x1_S800000x128_1_0_0_1 rfl rfl rfl rfl, hz]
  have hsum : (∑ e : Fin 800000, (if (dstIdx a (ix2 e (0 : Fin 1))).toInt = (n.val : Int) then
        ((mulf (F := Ideal) (φ := .f32) (broadcastInDim S800000x128 ![0, 1] bcast_S800000x1_S800000x128_0_1
            (broadcastInDim S800000x1 ![0] bcast_S800000_S800000x1_0 (normE a)))
          (Host.gather gather_S50000x128_S800000x1_S800000x128_1_0_n_n_0_1_1128 ht (srcIdx a)) (ix2 e k) : EReal)) else 0))
      = ∑ e : Fin 800000, if lands a e n then (d a (sRow a e) * d a (tRow a e)) * ht (ix2 (sRow a e) k) else 0 :=
    Finset.sum_congr rfl fun e _ => if_congr Iff.rfl (by rw [mulf_apply, hw, hg]) rfl
  rw [hsum]

/-- A layer into one column at `(n, 0)`. -/
theorem layer1_apply (a : Args) (ht : Cn S50000x1 .f32) (b : Cn S1 .f32) (n : Fin 50000) :
    layer1 a ht b (ix2 n (0 : Fin 1))
      = ((Ideal.ofBits .f32 0x00000000#32
            + ∑ e : Fin 800000, if lands a e n then (d a (sRow a e) * d a (tRow a e)) * ht (ix2 (sRow a e) (0 : Fin 1)) else 0)
          + (d a n * d a n) * ht (ix2 n (0 : Fin 1))) + b (ix1 (0 : Fin 1)) := by
  have hw : ∀ e : Fin 800000, broadcastInDim S800000x1 ![0] bcast_S800000_S800000x1_0 (normE a) (ix2 e (0 : Fin 1))
      = d a (sRow a e) * d a (tRow a e) := fun e => (BroadcastReads.vec_to_col_apply _ _ e 0).trans (normE_apply a e)
  have hg : ∀ e : Fin 800000, Host.gather gather_S50000x1_S800000x1_S800000x1_1_0_n_n_0_1_11 ht (srcIdx a) (ix2 e (0 : Fin 1))
      = ht (ix2 (sRow a e) (0 : Fin 1)) := fun e =>
    GatherRows.gather_rows_apply' (by decide) gather_S50000x1_S800000x1_S800000x1_1_0_n_n_0_1_11 rfl rfl rfl rfl rfl rfl rfl ht (srcIdx a) e (0 : Fin 1)
  have hb : broadcastInDim S50000x1 ![0, 1] bcast_S1x1_S50000x1_0_1 (broadcastInDim S1x1 ![1] bcast_S1_S1x1_1 b) (ix2 n (0 : Fin 1))
      = b (ix1 (0 : Fin 1)) := (BroadcastReads.row_to_mat_apply _ _ n (0 : Fin 1)).trans (BroadcastReads.vec_to_row_apply _ _ 0 (0 : Fin 1))
  have hz : broadcastInDim S50000x1 ![] bcast_S_S50000x1 (constant (F := Ideal) S_ .f32 0x00000000#32) (ix2 n (0 : Fin 1))
      = Ideal.ofBits .f32 0x00000000#32 := rfl
  unfold layer1
  rw [addf_apply, addf_apply, mulf_apply, selfCol_apply, hb,
    ScatterRows.scatterAdd_rows_apply' scatter_S50000x1_S800000x1_S800000x1_1_0_0_1 rfl rfl rfl rfl, hz]
  have hsum : (∑ e : Fin 800000, (if (dstIdx a (ix2 e (0 : Fin 1))).toInt = (n.val : Int) then
        ((mulf (F := Ideal) (φ := .f32) (broadcastInDim S800000x1 ![0] bcast_S800000_S800000x1_0 (normE a))
          (Host.gather gather_S50000x1_S800000x1_S800000x1_1_0_n_n_0_1_11 ht (srcIdx a)) (ix2 e (0 : Fin 1)) : EReal)) else 0))
      = ∑ e : Fin 800000, if lands a e n then (d a (sRow a e) * d a (tRow a e)) * ht (ix2 (sRow a e) (0 : Fin 1)) else 0 :=
    Finset.sum_congr rfl fun e _ => if_congr Iff.rfl (by rw [mulf_apply, hw, hg]) rfl
  rw [hsum]

/-- The node features after the input projection at `(n, k)`: the contraction over the one input column is one product. -/
theorem h0R_apply (a : Args) (n : Fin 50000) (k : Fin 128) :
    h0R a (ix2 n k)
      = prelu (nm a (ix2 n (0 : Fin 1)) * a.x4 (ix2 (0 : Fin 1) k) + a.x5 (ix1 k)) (a.x6 (ix1 k)) + a.x2 (ix2 n k) := by
  unfold h0R
  refine congrArg₂ (· + ·) ?_ rfl
  refine (preluRows_apply _ _ n k).trans ?_
  refine congrArg (fun z => prelu z (a.x6 (ix1 k))) ?_
  refine congrArg₂ (· + ·) ?_ ((BroadcastReads.row_to_mat_apply _ _ n k).trans (BroadcastReads.vec_to_row_apply _ _ 0 k))
  simp only [Host.dotGeneral]
  refine Eq.trans (RowOps.dotGeneral_plain_apply _ ⟨_, rfl⟩ _ _ _ _ n k) ?_
  rw [Fin.sum_univ_succ, Fin.sum_univ_zero, add_zero]

end Cert.ReferenceIdeal.RefValue

end
-- ==== Proof.Bridge.lean ====
/-
  The two programs compute one function.

  Layer by layer. Write `ht` for a layer's transformed features `h @ W` as the reference computes them. The kernel never
  holds `ht`: it holds the PRE-SCALED rows `hs = d ⊙ ht` (each row times its node's scale), aggregates those, and scales
  the sum once more: `d n * (agg hs (n, k) + hs (n, k)) + b k`. The reference scales each edge's row by the edge's weight
  `d (source) * d (destination)` before aggregating and adds the self term `(d n * d n) * ht (n, k)`. By the layer law the
  two are equal — `d n` is a nonnegative real, so it distributes over the sum, and an edge that lands at `n` has destination
  row `n`. Hence the next layer's pre-scaled rows are again `d ⊙ (next ht)`, and after the last combine the results agree.
-/
import proofs.«181795_j20581483283116_2_alg».proof.Proof.RefValue

set_option maxRecDepth 16384

noncomputable section

open scoped BigOperators

namespace Cert.Bridge

open Cert.KernelIdeal.KValue Cert.ReferenceIdeal.RefValue Idealize.ShloMosaic Idealize.ShloMosaic.ValueIdx GcnLaw

-- every step below is a rewrite by a lemma; the node scales, the scatter's sum, the reciprocal square root and the float
-- patterns stay folded, so that no comparison of two terms can start evaluating a sum over the edges
attribute [local irreducible] Cert.KernelIdeal.KValue.dis Ideal.rsqrt Ideal.hostScatterAdd Finset.sum Ideal.ofBits
set_option maxHeartbeats 100000

/-- THE LAYER, at arrays: with pre-scaled rows `hs = d ⊙ ht`, the kernel's combine is the reference's layer. -/
theorem combine128 (a : Args) (hs ht : Cn Cert.KernelIdeal.S50000x128 .f32) (b : Cn Cert.KernelIdeal.S128 .f32)
    (hh : ∀ n k, hs (ix2 n k) = d a n * ht (ix2 n k)) (n : Fin 50000) (k : Fin 128) :
    dis2 a (ix2 n (0 : Fin 1)) * (aggRows a hs (ix2 n k) + hs (ix2 n k)) + row128 b (ix2 (0 : Fin 1) k)
      = layer128 a ht b (ix2 n k) := by
  have hsum : (∑ e : Fin 800000, if lands a e n then hs (ix2 (sRow a e) k) else 0)
      = ∑ e : Fin 800000, if lands a e n then d a (sRow a e) * ht (ix2 (sRow a e) k) else 0 :=
    Finset.sum_congr rfl fun e _ => if_congr Iff.rfl (hh _ _) rfl
  rw [dis2_apply, aggRows_apply, row128_apply, layer128_apply, hh n k, hsum, Ideal.ofBits_zero_f32]
  exact GcnLaw.layer_law (d a) (fun n => (d_ok a n).1) (fun n => (d_ok a n).2) (lands a) (sRow a) (tRow a)
    (tRow_of_lands a) (fun n' => ht (ix2 n' k)) (b (ix1 k)) n

/-- The next layer's pre-scaled rows, 128 columns: `d ⊙` the reference's next transformed features. -/
theorem next128 (a : Args) (hs ht : Cn Cert.KernelIdeal.S50000x128 .f32) (b sl : Cn Cert.KernelIdeal.S128 .f32)
    (w : Cn Cert.KernelIdeal.S128x128 .f32) (hh : ∀ n k, hs (ix2 n k) = d a n * ht (ix2 n k)) (n : Fin 50000) (q : Fin 128) :
    combineRows (N := 50000) (C := 128) (aggRows a hs) hs (dis2 a) (row128 b) (row128 sl) (bf w) n q
      = d a n * lin128 (preluRows (layer128 a ht b) sl) w (ix2 n q) := by
  unfold combineRows
  rw [lin128_apply, dis2_apply]
  refine congrArg (d a n * ·) (Finset.sum_congr rfl fun k _ => ?_)
  have c := combine128 a hs ht b hh n k
  rw [dis2_apply] at c
  rw [preluRows_apply, c, row128_apply]
  rfl

/-- The next layer's pre-scaled column. -/
theorem next1 (a : Args) (hs ht : Cn Cert.KernelIdeal.S50000x128 .f32) (b sl : Cn Cert.KernelIdeal.S128 .f32)
    (w : Cn Cert.KernelIdeal.S128x1 .f32) (hh : ∀ n k, hs (ix2 n k) = d a n * ht (ix2 n k)) (n : Fin 50000) :
    combineRows (N := 50000) (C := 1) (aggRows a hs) hs (dis2 a) (row128 b) (row128 sl) (bf1 w) n (0 : Fin 1)
      = d a n * lin1 (preluRows (layer128 a ht b) sl) w (ix2 n (0 : Fin 1)) := by
  unfold combineRows
  rw [lin1_apply, dis2_apply]
  refine congrArg (d a n * ·) (Finset.sum_congr rfl fun k _ => ?_)
  have c := combine128 a hs ht b hh n k
  rw [dis2_apply] at c
  rw [preluRows_apply, c, row128_apply]
  rfl

/-- Layer 1's pre-scaled rows are `d ⊙` the reference's first transformed features. -/
theorem hs1_eq (a : Args) (n : Fin 50000) (k : Fin 128) : hs1 a (ix2 n k) = d a n * ht1 a (ix2 n k) := by
  show firstRows (N := 50000) (nm a) (dis2 a) a.x2 a.x4 (row128 a.x5) (row128 a.x6) (bf a.x7) n k = _
  unfold firstRows ht1
  rw [lin128_apply, dis2_apply]
  refine congrArg (d a n * ·) (Finset.sum_congr rfl fun j _ => ?_)
  rw [h0R_apply, row128_apply, row128_apply]
  rfl

theorem hs2_eq (a : Args) (n : Fin 50000) (k : Fin 128) : hs2 a (ix2 n k) = d a n * ht2 a (ix2 n k) :=
  next128 a (hs1 a) (ht1 a) a.x8 a.x9 a.x10 (hs1_eq a) n k

theorem hs3_eq (a : Args) (n : Fin 50000) : hs3 a (ix2 n (0 : Fin 1)) = d a n * ht3 a (ix2 n (0 : Fin 1)) :=
  next1 a (hs2 a) (ht2 a) a.x11 a.x12 a.x13 (hs2_eq a) n

/-- The last combine is the reference's last layer. -/
theorem h3_eq (a : Args) (n : Fin 50000) : h3 a (ix2 n (0 : Fin 1)) = layer1 a (ht3 a) a.x14 (ix2 n (0 : Fin 1)) := by
  show finalRows (N := 50000) (aggCol a (hs3 a)) (hs3 a) (dis2 a) (row1 a.x14) n = _
  unfold finalRows
  have hsum : (∑ e : Fin 800000, if lands a e n then hs3 a (ix2 (sRow a e) (0 : Fin 1)) else 0)
      = ∑ e : Fin 800000, if lands a e n then d a (sRow a e) * ht3 a (ix2 (sRow a e) (0 : Fin 1)) else 0 :=
    Finset.sum_congr rfl fun e _ => if_congr Iff.rfl (hs3_eq a _) rfl
  rw [dis2_apply, aggCol_apply, row1_apply, layer1_apply, hs3_eq a n, hsum, Ideal.ofBits_zero_f32]
  exact GcnLaw.layer_law (d a) (fun n => (d_ok a n).1) (fun n => (d_ok a n).2) (lands a) (sRow a) (tRow a)
    (tRow_of_lands a) (fun n' => ht3 a (ix2 n' (0 : Fin 1))) (a.x14 (ix1 (0 : Fin 1))) n

/-- THE RESULTS AGREE. -/
theorem out_eq (a : Args) : outK a = outR a := by
  funext i
  obtain ⟨n, rfl⟩ : ∃ n : Fin 50000, i = ix1 n := ⟨i 0, eq_ix1 i⟩
  exact (shapeCast_a1_a_apply _ _ n).trans ((h3_eq a n).trans (shapeCast_a1_a_apply _ _ n).symm)

end Cert.Bridge

end
-- ==== Proof.RefStages.lean ====
/-
  The generated reading of the reference, stage by stage, is the composition of the named layer operations.

  Each stage of the reference is its operation applied to earlier stages. Reading upward from the arguments: the edge
  endpoints, the node scales, the wrapped index columns, the per-edge weight and the self-term column; the input
  projection; and then per layer the linear map, the layer, and the PReLU. Each step unfolds the stages it covers and
  replaces the earlier ones by their names, so no step compares more than one operation's worth of text.
-/
import proofs.«181795_j20581483283116_2_alg».proof.Proof.RefValue

set_option maxRecDepth 16384

noncomputable section

namespace Cert.ReferenceIdeal.RefValue

open Cert.ReferenceIdeal Cert.ReferenceIdeal.Gen Cert.ReferenceIdeal.Read Idealize.ShloMosaic
open Cert.KernelIdeal.KValue

-- each step compares one operation's worth of text; the scatter's sum, the reciprocal square root and the float patterns
-- stay folded so that no comparison can start evaluating them
attribute [local irreducible] Ideal.rsqrt Ideal.hostScatterAdd Finset.sum Ideal.ofBits
set_option maxHeartbeats 100000

theorem st_v1 (a : Args) : val_main_v1 (F := Ideal) a.x3 = src a := by
  unfold val_main_v1 val_main_v0
  rfl

theorem st_v3 (a : Args) : val_main_v3 (F := Ideal) a.x3 = dst a := by
  unfold val_main_v3 val_main_v2
  rfl

theorem st_v10 (a : Args) : val_main_v10 (F := Ideal) a.x3 = dis a := by
  unfold val_main_v10 val_main_v9 val_main_v8 val_main_v7 val_main_v6 val_main_v5 val_main_v4 val_main_cst val_main_cst_0 val_main_cst_1
  rw [st_v3]
  rfl

theorem st_v16 (a : Args) : val_main_v16 (F := Ideal) a.x3 = srcIdx a := by
  unfold val_main_v16 val_main_v15 val_main_v14 val_main_v13 val_main_v12 val_main_v11 val_main_c val_main_c_2
  rw [st_v1]
  rfl

theorem st_v23 (a : Args) : val_main_v23 (F := Ideal) a.x3 = dstWrapIdx a := by
  unfold val_main_v23 val_main_v22 val_main_v21 val_main_v20 val_main_v19 val_main_v18 val_main_c_3 val_main_c_4
  rw [st_v3]
  rfl

theorem st_v25 (a : Args) : val_main_v25 (F := Ideal) a.x3 = normE a := by
  unfold val_main_v25 val_main_v24 val_main_v17
  rw [st_v10, st_v16, st_v23]
  rfl

theorem st_v27 (a : Args) : val_main_v27 (F := Ideal) a.x3 = selfCol a := by
  unfold val_main_v27 val_main_v26
  rw [st_v10]
  rfl

theorem st_v48 (a : Args) : val_main_v48 (F := Ideal) a.x3 = srcIdx a := by
  unfold val_main_v48 val_main_v47 val_main_v46 val_main_v45 val_main_v44 val_main_v43 val_main_c_6 val_main_c_7
  rw [st_v1]
  rfl

theorem st_v74 (a : Args) : val_main_v74 (F := Ideal) a.x3 = srcIdx a := by
  unfold val_main_v74 val_main_v73 val_main_v72 val_main_v71 val_main_v70 val_main_v69 val_main_c_10 val_main_c_11
  rw [st_v1]
  rfl

theorem st_v100 (a : Args) : val_main_v100 (F := Ideal) a.x3 = srcIdx a := by
  unfold val_main_v100 val_main_v99 val_main_v98 val_main_v97 val_main_v96 val_main_v95 val_main_c_14 val_main_c_15
  rw [st_v1]
  rfl

theorem st_v53 (a : Args) : val_main_v53 (F := Ideal) a.x3 = dstIdx a := by
  unfold val_main_v53
  rw [st_v3]
  rfl

theorem st_v79 (a : Args) : val_main_v79 (F := Ideal) a.x3 = dstIdx a := by
  unfold val_main_v79
  rw [st_v3]
  rfl

theorem st_v104 (a : Args) : val_main_v104 (F := Ideal) a.x3 = dstIdx a := by
  unfold val_main_v104
  rw [st_v3]
  rfl

theorem st_v40 (a : Args) : val_main_v40 (F := Ideal) a.x0 a.x1 a.x2 a.x4 a.x5 a.x6 = h0R a := by
  unfold val_main_v40 val_main_v39 val_main_v38 val_main_v37 val_main_v36 val_main_v35 val_main_v34 val_main_cst_5 val_main_v33 val_main_v32 val_main_v31 val_main_v30 val_main_v29 val_main_v28
  rfl

theorem st_v41 (a : Args) : val_main_v41 (F := Ideal) a.x0 a.x1 a.x2 a.x4 a.x5 a.x6 a.x7 = ht1 a := by
  unfold val_main_v41
  rw [st_v40]
  rfl

theorem st_v60 (a : Args) : val_main_v60 (F := Ideal) a.x0 a.x1 a.x2 a.x3 a.x4 a.x5 a.x6 a.x7 a.x8 = layer128 a (ht1 a) a.x8 := by
  unfold val_main_v60 val_main_v59 val_main_v58 val_main_v57 val_main_v56 val_main_v55 val_main_v54 val_main_v52 val_main_cst_8 val_main_v51 val_main_v50 val_main_v49 val_main_v42
  rw [st_v41, st_v25, st_v27, st_v48, st_v53]
  rfl

theorem st_v66 (a : Args) : val_main_v66 (F := Ideal) a.x0 a.x1 a.x2 a.x3 a.x4 a.x5 a.x6 a.x7 a.x8 a.x9 = preluRows (layer128 a (ht1 a) a.x8) a.x9 := by
  unfold val_main_v66 val_main_v65 val_main_v64 val_main_v63 val_main_v62 val_main_v61 val_main_cst_9
  rw [st_v60]
  rfl

theorem st_v67 (a : Args) : val_main_v67 (F := Ideal) a.x0 a.x1 a.x2 a.x3 a.x4 a.x5 a.x6 a.x7 a.x8 a.x9 a.x10 = ht2 a := by
  unfold val_main_v67
  rw [st_v66]
  rfl

theorem st_v86 (a : Args) : val_main_v86 (F := Ideal) a.x0 a.x1 a.x2 a.x3 a.x4 a.x5 a.x6 a.x7 a.x8 a.x9 a.x10 a.x11 = layer128 a (ht2 a) a.x11 := by
  unfold val_main_v86 val_main_v85 val_main_v84 val_main_v83 val_main_v82 val_main_v81 val_main_v80 val_main_v78 val_main_cst_12 val_main_v77 val_main_v76 val_main_v75 val_main_v68
  rw [st_v67, st_v25, st_v27, st_v74, st_v79]
  rfl

theorem st_v92 (a : Args) : val_main_v92 (F := Ideal) a.x0 a.x1 a.x2 a.x3 a.x4 a.x5 a.x6 a.x7 a.x8 a.x9 a.x10 a.x11 a.x12 = preluRows (layer128 a (ht2 a) a.x11) a.x12 := by
  unfold val_main_v92 val_main_v91 val_main_v90 val_main_v89 val_main_v88 val_main_v87 val_main_cst_13
  rw [st_v86]
  rfl

theorem st_v93 (a : Args) : val_main_v93 (F := Ideal) a.x0 a.x1 a.x2 a.x3 a.x4 a.x5 a.x6 a.x7 a.x8 a.x9 a.x10 a.x11 a.x12 a.x13 = ht3 a := by
  unfold val_main_v93
  rw [st_v92]
  rfl

theorem st_v110 (a : Args) : val_main_v110 (F := Ideal) a.x0 a.x1 a.x2 a.x3 a.x4 a.x5 a.x6 a.x7 a.x8 a.x9 a.x10 a.x11 a.x12 a.x13 a.x14 = layer1 a (ht3 a) a.x14 := by
  unfold val_main_v110 val_main_v109 val_main_v108 val_main_v107 val_main_v106 val_main_v105 val_main_v103 val_main_cst_16 val_main_v102 val_main_v101 val_main_v94
  rw [st_v93, st_v25, st_v27, st_v100, st_v104]
  rfl

theorem st_v111 (a : Args) : val_main_v111 (F := Ideal) a.x0 a.x1 a.x2 a.x3 a.x4 a.x5 a.x6 a.x7 a.x8 a.x9 a.x10 a.x11 a.x12 a.x13 a.x14 = outR a := by
  unfold val_main_v111
  rw [st_v110]
  rfl

/-- THE REFERENCE'S RESULT, as the generated reading states it, is `outR` of the arguments. -/
theorem ref_eq (a : Args) : val_main_v111 (F := Ideal) a.x0 a.x1 a.x2 a.x3 a.x4 a.x5 a.x6 a.x7 a.x8 a.x9 a.x10 a.x11 a.x12 a.x13 a.x14 = outR a := st_v111 a

end Cert.ReferenceIdeal.RefValue

end
-- ==== Proof.lean ====
/-
  A three-layer graph convolution network on 50000 nodes and 800000 edges, as a TPU program of four pipelined regions
  among host gathers and scatters, against its jnp reference: equal results on the extended reals.

  Both programs compute the node scales `d = (1 + in-degree)^(-1/2)`, the node features after the input projection
  `h0 = prelu (num_x * mask @ W_num + b_num, a_in) + x`, and then three times a layer: transform the features by a weight
  matrix (`ht = h @ W`), aggregate over incoming edges with the symmetric normalisation, add the self term and the bias,
  and (but for the last layer) apply a PReLU. They differ in where the normalisation is applied. The reference scales each
  edge's row by `d (source) * d (destination)` before adding it into the destination's row, and adds `(d n * d n) * ht n`.
  The kernel keeps the rows pre-scaled, `hs = d ⊙ ht`, adds edge rows unscaled, and multiplies the sum once:
  `d n * (∑ hs (source) + hs n) + b`. The two are equal because `d n` is a nonnegative real — the reciprocal square root
  of a positive count — and such a number distributes over a sum of extended reals; an edge that lands at `n` has
  destination `n`, and the rest is associativity and commutativity of the product. A change of float format on the way
  into the matrix unit is the identity on the extended reals, the matrix unit's product into a zero accumulator is the
  plain sum over the contracted axis, and the reference's contraction over the one numeric column is a single product.

  The frames of both kernel programs are the generated frame certificates; the reference's frame is its generated run
  with the result dropped. The idealization rewrote nothing, so it is preserved trivially. For the value claim the
  kernel's run is read back segment by segment to one function of the arguments (the row function of each region over
  its ten row tiles, the host stretches as written), the reference's run is read stage by stage, and the two functions
  are shown equal index by index.
-/
import proofs.«181795_j20581483283116_2_alg».proof.Defs
import proofs.«181795_j20581483283116_2_alg».proof.Proof.Gen.Kernel
import proofs.«181795_j20581483283116_2_alg».proof.Proof.Gen.Kernel.Skeleton
import proofs.«181795_j20581483283116_2_alg».proof.Proof.Gen.Kernel.Launch
import proofs.«181795_j20581483283116_2_alg».proof.Proof.Gen.Kernel.Points
import proofs.«181795_j20581483283116_2_alg».proof.Proof.Gen.Kernel.Frame
import proofs.«181795_j20581483283116_2_alg».proof.Proof.Gen.KernelIdeal
import proofs.«181795_j20581483283116_2_alg».proof.Proof.Gen.KernelIdeal.Skeleton
import proofs.«181795_j20581483283116_2_alg».proof.Proof.Gen.KernelIdeal.Launch
import proofs.«181795_j20581483283116_2_alg».proof.Proof.Gen.KernelIdeal.Points
import proofs.«181795_j20581483283116_2_alg».proof.Proof.Gen.KernelIdeal.Frame
import proofs.«181795_j20581483283116_2_alg».proof.Proof.Gen.ReferenceIdeal
import proofs.«181795_j20581483283116_2_alg».proof.Proof.Gen.Pre_finite_inputs
import proofs.«181795_j20581483283116_2_alg».proof.Proof.Gen.ReferenceIdeal.Read
import proofs.«181795_j20581483283116_2_alg».proof.Proof.KernelRun
import proofs.«181795_j20581483283116_2_alg».proof.Proof.Bridge
import proofs.«181795_j20581483283116_2_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-- At the ideal values the kernel's result array ends at `outK` of its arguments (its run, read back) and the
    reference's at the composition of its stages (its generated run) of arguments that agree: one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.outK (Cert.KernelIdeal.KValue.argsOf m c), ?_, ?_⟩
  · exact (θ_run Cert.KernelIdeal.defs _ _).mono
      (fun r h c => ⟨(h c).1.trans (Cert.KernelIdeal.KValue.result_eq m ρ c), (h c).2⟩)
      (Cert.KernelIdeal.Result.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14⟩ := hagree c
    refine (h c).1.trans ((Cert.ReferenceIdeal.Read.val_main_v111_eq m' c).trans ?_)
    rw [h0, h1, h2, h3, h4, h5, h6, h7, h8, h9, h10, h11, h12, h13, h14]
    exact (Cert.ReferenceIdeal.RefValue.ref_eq (Cert.KernelIdeal.KValue.argsOf m c)).trans
      (Cert.Bridge.out_eq (Cert.KernelIdeal.KValue.argsOf m c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
